-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x56x56 : Shape := ⟨4, ![8, 21, 56, 56]⟩
abbrev S8x448x56x56 : Shape := ⟨4, ![8, 448, 56, 56]⟩
abbrev S_ : Shape := ⟨0, ![]⟩

class Facts : Prop where
  bcast_S_S8x21x56x56 : S_.BroadcastsInDim S8x21x56x56 (![] : Fin 0 → Fin S8x21x56x56.rank)
  reducesTo_S8x21x56x56_S_d0_1_2_3 : S8x21x56x56.ReducesTo [0, 1, 2, 3] S_
  h_S_ : 0 < S_.numel
  bcast_S_S8x448x56x56 : S_.BroadcastsInDim S8x448x56x56 (![] : Fin 0 → Fin S8x448x56x56.rank)
  reducesTo_S8x448x56x56_S_d0_1_2_3 : S8x448x56x56.ReducesTo [0, 1, 2, 3] S_

variable [Facts]

def fn {F : FTy → Type} [FloatOps F] (main_arg0 : FVec F S8x21x56x56 .f32) (main_arg1 : FVec F S8x448x56x56 .f32) : IVec S_ 1 :=
  let main_v0 : FVec F S8x21x56x56 .f32 := Host.absf main_arg0
  let main_cst : FVec F S_ .f32 := constant S_ .f32 0x7F800000#32
  let main_v1 : FVec F S8x21x56x56 .f32 := broadcastInDim S8x21x56x56 ![] bcast_S_S8x21x56x56 main_cst
  let main_v2 : IVec S8x21x56x56 1 := cmpf .olt main_v0 main_v1
  let main_c : IVec S_ 1 := constantI S_ 1 1#1
  let main_v3 : IVec S_ 1 := (fun x v => Host.reduce IntOp.andi x v reducesTo_S8x21x56x56_S_d0_1_2_3 h_S_) main_v2 main_c
  let main_v4 : FVec F S8x448x56x56 .f32 := Host.absf main_arg1
  let main_cst_0 : FVec F S_ .f32 := constant S_ .f32 0x7F800000#32
  let main_v5 : FVec F S8x448x56x56 .f32 := broadcastInDim S8x448x56x56 ![] bcast_S_S8x448x56x56 main_cst_0
  let main_v6 : IVec S8x448x56x56 1 := cmpf .olt main_v4 main_v5
  let main_c_1 : IVec S_ 1 := constantI S_ 1 1#1
  let main_v7 : IVec S_ 1 := (fun x v => Host.reduce IntOp.andi x v reducesTo_S8x448x56x56_S_d0_1_2_3 h_S_) main_v6 main_c_1
  let main_v8 : IVec S_ 1 := andi main_v3 main_v7
  main_v8
-- ==== Kernel.lean ====
abbrev S8x21x56x56 : Shape := ⟨4, ![8, 21, 56, 56]⟩
abbrev S8x448x56x56 : Shape := ⟨4, ![8, 448, 56, 56]⟩
abbrev S8x448x3136 : Shape := ⟨3, ![8, 448, 3136]⟩
abbrev S8x21x3136 : Shape := ⟨3, ![8, 21, 3136]⟩
abbrev S_ : Shape := ⟨0, ![]⟩
abbrev S8x448x3200 : Shape := ⟨3, ![8, 448, 3200]⟩
abbrev S8x21x3200 : Shape := ⟨3, ![8, 21, 3200]⟩
abbrev S1x448x3200 : Shape := ⟨3, ![1, 448, 3200]⟩
abbrev S1x21x3200 : Shape := ⟨3, ![1, 21, 3200]⟩
abbrev S1x21x640 : Shape := ⟨3, ![1, 21, 640]⟩
abbrev S1x448x640 : Shape := ⟨3, ![1, 448, 640]⟩
abbrev S448x640 : Shape := ⟨2, ![448, 640]⟩
abbrev S640 : Shape := ⟨1, ![640]⟩
abbrev S1x640 : Shape := ⟨2, ![1, 640]⟩
abbrev S21x640 : Shape := ⟨2, ![21, 640]⟩
abbrev S640x640 : Shape := ⟨2, ![640, 640]⟩

abbrev nBuf : Space → Nat
  | .hbm => 13
  | .vmem => 6
  | .smem => 0
  | _ => 0

abbrev bufTy : (tb : Table) → Fin (tcTables nBuf tb) → BufTy
  | .hbm, ⟨0, _⟩ => ⟨S8x21x56x56, .f32⟩
  | .hbm, ⟨1, _⟩ => ⟨S8x448x56x56, .f32⟩
  | .hbm, ⟨2, _⟩ => ⟨S8x448x3136, .f32⟩
  | .hbm, ⟨3, _⟩ => ⟨S8x21x3136, .f32⟩
  | .hbm, ⟨4, _⟩ => ⟨S_, .i32⟩
  | .hbm, ⟨5, _⟩ => ⟨S_, .f32⟩
  | .hbm, ⟨6, _⟩ => ⟨S8x448x3200, .f32⟩
  | .hbm, ⟨7, _⟩ => ⟨S_, .i32⟩
  | .hbm, ⟨8, _⟩ => ⟨S_, .f32⟩
  | .hbm, ⟨9, _⟩ => ⟨S8x21x3200, .f32⟩
  | .hbm, ⟨10, _⟩ => ⟨S8x21x3200, .f32⟩
  | .hbm, ⟨11, _⟩ => ⟨S8x21x3136, .f32⟩
  | .hbm, ⟨12, _⟩ => ⟨S8x21x56x56, .f32⟩
  | .local _ .vmem, ⟨0, _⟩ => ⟨S1x448x3200, .f32⟩
  | .local _ .vmem, ⟨1, _⟩ => ⟨S1x448x3200, .f32⟩
  | .local _ .vmem, ⟨2, _⟩ => ⟨S1x21x3200, .f32⟩
  | .local _ .vmem, ⟨3, _⟩ => ⟨S1x21x3200, .f32⟩
  | .local _ .vmem, ⟨4, _⟩ => ⟨S1x21x640, .f32⟩
  | .local _ .vmem, ⟨5, _⟩ => ⟨S1x21x640, .f32⟩
  | _, _ => ⟨S8x21x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_mult1 (i : grid0.Coords) : BitVec 32 :=
  let arg1 : BitVec 32 := BitVec.ofNat 32 (i 1).val
  let c640_i32 : BitVec 32 := 640#32
  let v0 : BitVec 32 := Scalar.muli arg1 c640_i32
  v0
def k0_off1 (i : grid0.Coords) : Fin 3 → Nat :=
  let c0 : Index := 0#32
  let c0_0 : Index := 0#32
  let arg1 : BitVec 32 := BitVec.ofNat 32 (i 1).val
  let c640_i32 : BitVec 32 := 640#32
  let v0 : BitVec 32 := Scalar.muli arg1 c640_i32
  let v1 : BitVec 32 := v0
  let v2 : Index := Scalar.indexCast v1
  ![0, 0, v2.toNat]
@[reducible] def k0_t1_loop : Scf.Loop 32 :=
  let c0_i32 : BitVec 32 := 0#32
  let c5_i32 : BitVec 32 := 5#32
  let v16 : BitVec 32 := Scalar.addi c0_i32 c5_i32
  let c1_i32 : BitVec 32 := 1#32
  ⟨c0_i32, v16, c1_i32⟩
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c640_i32_9 : BitVec 32 := 640#32
  let v25 : BitVec 32 := Scalar.muli arg5 c640_i32_9
  v25
def k0_off2 (k0_t1 : Fin k0_t1_loop.trips) : Fin 3 → Nat :=
  let c0_10 : Index := 0#32
  let c0_11 : Index := 0#32
  let c0_i32 : BitVec 32 := 0#32
  let c1_i32 : BitVec 32 := 1#32
  let arg5 : BitVec 32 := Scf.iv c0_i32 c1_i32 k0_t1
  let c640_i32_9 : BitVec 32 := 640#32
  let v25 : BitVec 32 := Scalar.muli arg5 c640_i32_9
  let v26 : BitVec 32 := v25
  let v27 : Index := Scalar.indexCast v26
  ![0, 0, v27.toNat]
def k0_off3 (k0_t1 : Fin k0_t1_loop.trips) : Fin 3 → Nat :=
  let c0_17 : Index := 0#32
  let c0_18 : Index := 0#32
  let c0_i32 : BitVec 32 := 0#32
  let c1_i32 : BitVec 32 := 1#32
  let arg5 : BitVec 32 := Scf.iv c0_i32 c1_i32 k0_t1
  let c640_i32_9 : BitVec 32 := 640#32
  let v25 : BitVec 32 := Scalar.muli arg5 c640_i32_9
  let v26 : BitVec 32 := v25
  let v45 : Index := Scalar.indexCast v26
  ![0, 0, v45.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x448x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x21x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x21x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x448x56x56_S8x448x3136 : S8x448x56x56.ShapeCasts S8x448x3136
  shapeCasts_S8x21x56x56_S8x21x3136 : S8x21x56x56.ShapeCasts S8x21x3136
  pads_S8x448x3136_S8x448x3200_000_000_0640 : S8x448x3136.Pads (![0, 0, 0] : Fin 3 → Nat) ![0, 0, 64] ![0, 0, 0] S8x448x3200
  h_S_ : 0 < S_.numel
  pads_S8x21x3136_S8x21x3200_000_000_0640 : S8x21x3136.Pads (![0, 0, 0] : Fin 3 → Nat) ![0, 0, 64] ![0, 0, 0] S8x21x3200
  h_S1x448x640 : 0 < S1x448x640.numel
  shapeCasts_S1x448x640_S448x640 : S1x448x640.ShapeCasts S448x640
  reduces_S448x640_S640 : S448x640.Reduces [0] S640
  shapeCasts_S640_S1x640 : S640.ShapeCasts S1x640
  broadcasts_S1x640_S448x640 : S1x640.Broadcasts S448x640
  bitsLt_bf16_f32 : FTy.bits .bf16 < FTy.bits .f32
  reduces_S640x640_S640 : S640x640.Reduces [0] S640
  h_S1x21x640 : 0 < S1x21x640.numel
  shapeCasts_S1x21x640_S21x640 : S1x21x640.ShapeCasts S21x640
  broadcasts_S1x640_S21x640 : S1x640.Broadcasts S21x640
  inb_S1x21x640_S1x21x640_0_0_0 : ∀ a, (![0, 0, 0] : Fin 3 → Nat) a + S1x21x640.size a ≤ S1x21x640.size a
  shapeCasts_S21x640_S1x21x640 : S21x640.ShapeCasts S1x21x640
  slices_S8x21x3200_S8x21x3136_0_0_0 : S8x21x3200.Slices ![0, 0, 0] S8x21x3136
  shapeCasts_S8x21x3136_S8x21x56x56 : S8x21x3136.ShapeCasts S8x21x56x56
  dot_S448x640_S448x640_S640x640_0_0_1_1_n_n_wf : DotDims.WF S448x640 S448x640 S640x640 [0] [0] [1] [1] [] []
  dot_S21x640_S640x640_S21x640_1_0_0_1_n_n_wf : DotDims.WF S21x640 S640x640 S21x640 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x448x640.size a ≤ S1x448x3200.size a
  k0_t1_ok : k0_t1_loop.OK
  k0_mult2_dvd : ∀ k0_t1 : Fin k0_t1_loop.trips, 128 ∣ (k0_mult2 k0_t1).toNat
  k0_off2_inb : ∀ k0_t1 : Fin k0_t1_loop.trips, ∀ a, (k0_off2 k0_t1) a + S1x448x640.size a ≤ S1x448x3200.size a
  k0_off3_inb : ∀ k0_t1 : Fin k0_t1_loop.trips, ∀ a, (k0_off3 k0_t1) a + S1x21x640.size a ≤ S1x21x3200.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x448x3200.size a ≤ S8x448x3200.size a
  hwx0_0 : ∀ i : grid0.Coords, EltTy.bits .f32 = 32 ∨ (Rect.block (s := S8x448x3200) S1x448x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x21x3200.size a ≤ S8x21x3200.size a
  hwx0_1 : ∀ i : grid0.Coords, EltTy.bits .f32 = 32 ∨ (Rect.block (s := S8x21x3200) S1x21x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x21x640.size a ≤ S8x21x3200.size a
  hwx0_2 : ∀ i : grid0.Coords, EltTy.bits .f32 = 32 ∨ (Rect.block (s := S8x21x3200) S1x21x640.size (cc0_transform_2 i) (hinb0_2 i)).WholeWords (EltTy.packing .f32)

variable [Facts₀]

def dot_S448x640_S448x640_S640x640_0_0_1_1_n_n : DotDims S448x640 S448x640 S640x640 where
  lhsContracting := [0]
  rhsContracting := [0]
  lhsNonContracting := [1]
  rhsNonContracting := [1]
  lhsBatch := []
  rhsBatch := []
  wf := dot_S448x640_S448x640_S640x640_0_0_1_1_n_n_wf
def dot_S21x640_S640x640_S21x640_1_0_0_1_n_n : DotDims S21x640 S640x640 S21x640 where
  lhsContracting := [1]
  rhsContracting := [0]
  lhsNonContracting := [0]
  rhsNonContracting := [1]
  lhsBatch := []
  rhsBatch := []
  wf := dot_S21x640_S640x640_S21x640_1_0_0_1_n_n_wf

abbrev win0_0 : Pipeline.Window sig grid0 :=
  Pipeline.Window.ofSpec (Memref.whole main_v2) S1x448x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x21x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x21x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x21x56x56 : Shape := ⟨4, ![8, 21, 56, 56]⟩
abbrev S8x448x56x56 : Shape := ⟨4, ![8, 448, 56, 56]⟩
abbrev S8x21x3136 : Shape := ⟨3, ![8, 21, 3136]⟩
abbrev S8x448x3136 : Shape := ⟨3, ![8, 448, 3136]⟩
abbrev S_ : Shape := ⟨0, ![]⟩
abbrev S8x3136 : Shape := ⟨2, ![8, 3136]⟩
abbrev S8x1x3136 : Shape := ⟨3, ![8, 1, 3136]⟩
abbrev S8x3136x3136 : Shape := ⟨3, ![8, 3136, 3136]⟩

abbrev nBuf : Space → Nat
  | .hbm => 28
  | .vmem => 0
  | .smem => 0
  | _ => 0

abbrev bufTy : (tb : Table) → Fin (tcTables nBuf tb) → BufTy
  | .hbm, ⟨0, _⟩ => ⟨S8x21x56x56, .f32⟩
  | .hbm, ⟨1, _⟩ => ⟨S8x448x56x56, .f32⟩
  | .hbm, ⟨2, _⟩ => ⟨S8x21x3136, .f32⟩
  | .hbm, ⟨3, _⟩ => ⟨S8x448x3136, .f32⟩
  | .hbm, ⟨4, _⟩ => ⟨S8x448x3136, .f32⟩
  | .hbm, ⟨5, _⟩ => ⟨S_, .f32⟩
  | .hbm, ⟨6, _⟩ => ⟨S8x3136, .f32⟩
  | .hbm, ⟨7, _⟩ => ⟨S8x1x3136, .f32⟩
  | .hbm, ⟨8, _⟩ => ⟨S8x1x3136, .f32⟩
  | .hbm, ⟨9, _⟩ => ⟨S_, .f32⟩
  | .hbm, ⟨10, _⟩ => ⟨S8x1x3136, .f32⟩
  | .hbm, ⟨11, _⟩ => ⟨S8x1x3136, .f32⟩
  | .hbm, ⟨12, _⟩ => ⟨S8x448x3136, .f32⟩
  | .hbm, ⟨13, _⟩ => ⟨S8x448x3136, .f32⟩
  | .hbm, ⟨14, _⟩ => ⟨S8x3136x3136, .f32⟩
  | .hbm, ⟨15, _⟩ => ⟨S_, .f32⟩
  | .hbm, ⟨16, _⟩ => ⟨S8x3136x3136, .f32⟩
  | .hbm, ⟨17, _⟩ => ⟨S8x3136x3136, .f32⟩
  | .hbm, ⟨18, _⟩ => ⟨S_, .f32⟩
  | .hbm, ⟨19, _⟩ => ⟨S8x3136, .f32⟩
  | .hbm, ⟨20, _⟩ => ⟨S8x1x3136, .f32⟩
  | .hbm, ⟨21, _⟩ => ⟨S_, .f32⟩
  | .hbm, ⟨22, _⟩ => ⟨S8x1x3136, .f32⟩
  | .hbm, ⟨23, _⟩ => ⟨S8x1x3136, .f32⟩
  | .hbm, ⟨24, _⟩ => ⟨S8x3136x3136, .f32⟩
  | .hbm, ⟨25, _⟩ => ⟨S8x3136x3136, .f32⟩
  | .hbm, ⟨26, _⟩ => ⟨S8x21x3136, .f32⟩
  | .hbm, ⟨27, _⟩ => ⟨S8x21x56x56, .f32⟩
  | _, _ => ⟨S8x21x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_cst : Ref sig .tc := ⟨.hbm, 15, rfl⟩
abbrev main_call1_v0 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  shapeCasts_S8x21x56x56_S8x21x3136 : S8x21x56x56.ShapeCasts S8x21x3136
  shapeCasts_S8x448x56x56_S8x448x3136 : S8x448x56x56.ShapeCasts S8x448x3136
  reducesTo_S8x448x3136_S8x3136_d1 : S8x448x3136.ReducesTo [1] S8x3136
  h_S_ : 0 < S_.numel
  bcast_S8x3136_S8x1x3136_0_2 : S8x3136.BroadcastsInDim S8x1x3136 (![0, 2] : Fin 2 → Fin S8x1x3136.rank)
  bcast_S_S8x1x3136 : S_.BroadcastsInDim S8x1x3136 (![] : Fin 0 → Fin S8x1x3136.rank)
  bcast_S8x1x3136_S8x448x3136_0_1_2 : S8x1x3136.BroadcastsInDim S8x448x3136 (![0, 1, 2] : Fin 3 → Fin S8x448x3136.rank)
  bcast_S_S8x3136x3136 : S_.BroadcastsInDim S8x3136x3136 (![] : Fin 0 → Fin S8x3136x3136.rank)
  reducesTo_S8x3136x3136_S8x3136_d1 : S8x3136x3136.ReducesTo [1] S8x3136
  bcast_S8x1x3136_S8x3136x3136_0_1_2 : S8x1x3136.BroadcastsInDim S8x3136x3136 (![0, 1, 2] : Fin 3 → Fin S8x3136x3136.rank)
  shapeCasts_S8x21x3136_S8x21x56x56 : S8x21x3136.ShapeCasts S8x21x56x56
  dot_S8x448x3136_S8x448x3136_S8x3136x3136_1_1_2_2_0_0_wf : DotDims.WF S8x448x3136 S8x448x3136 S8x3136x3136 [1] [1] [2] [2] [0] [0]
  dot_S8x21x3136_S8x3136x3136_S8x21x3136_2_1_1_2_0_0_wf : DotDims.WF S8x21x3136 S8x3136x3136 S8x21x3136 [2] [1] [1] [2] [0] [0]

variable [Facts₀]

def dot_S8x448x3136_S8x448x3136_S8x3136x3136_1_1_2_2_0_0 : DotDims S8x448x3136 S8x448x3136 S8x3136x3136 where
  lhsContracting := [1]
  rhsContracting := [1]
  lhsNonContracting := [2]
  rhsNonContracting := [2]
  lhsBatch := [0]
  rhsBatch := [0]
  wf := dot_S8x448x3136_S8x448x3136_S8x3136x3136_1_1_2_2_0_0_wf
def dot_S8x21x3136_S8x3136x3136_S8x21x3136_2_1_1_2_0_0 : DotDims S8x21x3136 S8x3136x3136 S8x21x3136 where
  lhsContracting := [2]
  rhsContracting := [1]
  lhsNonContracting := [1]
  rhsNonContracting := [2]
  lhsBatch := [0]
  rhsBatch := [0]
  wf := dot_S8x21x3136_S8x3136x3136_S8x21x3136_2_1_1_2_0_0_wf

class Facts : Prop extends Facts₀ where

variable [Facts]
-- ==== Proof.Spec.lean ====
/-
  The mathematics both programs compute, per batch image, as pure functions on the extended reals.

  A batch image is a feature matrix `F c i` (448 channels, columns `i` — the 56·56 = 3136 pixels, and
  zero beyond them) and a class-activation matrix `C k i` (21 classes). Every column is scaled to unit
  length, `ftn c i = F c i / (‖F · i‖₂ + ε)`; the affinity of two pixels is the positive part of the inner
  product of their scaled columns, `aff i j = max (∑ c, ftn c i · ftn c j) 0`; each affinity column is
  L1-normalised with the same `ε`; and the result is the activation matrix times the normalised affinity.

  `refOut` divides every affinity entry by its column's sum BEFORE the product over pixels;
  `kerOut` forms the product and the column sum over five tiles of 640 columns (3200 = 3136 pixels and
  64 zero columns) and divides ONCE at the end. The two agree when the entries are real numbers
  (Algebra.lean): the quotient by a positive real moves across the finite sum, and a zero column has
  scaled column zero, hence affinity zero with every pixel.
-/
import Idealize.ShloMosaic.PureOps.Ideal
import Idealize.ShloMosaic.PureOps.Ideal.Laws
import Idealize.ShloMosaic.Lib.ValueIdx

noncomputable section

namespace Cert.Affinity

open Idealize.ShloMosaic Idealize.ShloMosaic.ValueIdx

/-- The one float literal of both programs, `f32 (1e-5)`, as the extended real its pattern denotes. -/
def eps : EReal := Ideal.ofBits .f32 0x3727C5AC#32

/-- The length of column `i`, plus `ε`. -/
def nrm (F : Fin 448 → ℕ → EReal) (i : ℕ) : EReal :=
  Ideal.sqrt (∑ c : Fin 448, F c i * F c i) + eps

/-- Column `i` scaled by its length. -/
def ftn (F : Fin 448 → ℕ → EReal) (c : Fin 448) (i : ℕ) : EReal :=
  Ideal.div (F c i) (nrm F i)

/-- The affinity of columns `i` and `j`: the positive part of the inner product of the scaled columns. -/
def aff (F : Fin 448 → ℕ → EReal) (i j : ℕ) : EReal :=
  max (∑ c : Fin 448, ftn F c i * ftn F c j) 0

/-- The L1 denominator of affinity column `j` over the 3136 pixels. -/
def den (F : Fin 448 → ℕ → EReal) (j : ℕ) : EReal :=
  (∑ i : Fin 3136, aff F i.val j) + eps

/-- Normalise first, then multiply: `∑ i, C k i · (aff i j / den j)`. -/
def refOut (F : Fin 448 → ℕ → EReal) (C : Fin 21 → ℕ → EReal) (k : Fin 21) (j : ℕ) : EReal :=
  ∑ i : Fin 3136, C k i.val * Ideal.div (aff F i.val j) (den F j)

/-- A sum over 3200 columns taken as five tiles of 640. -/
def tileSum (g : ℕ → EReal) : EReal :=
  ∑ I ∈ Finset.range 5, ∑ il : Fin 640, g (I * 640 + il.val)

/-- Multiply and sum tile by tile, then divide once: `(∑ i, C k i · aff i j) / (∑ i, aff i j + ε)`. -/
def kerOut (F : Fin 448 → ℕ → EReal) (C : Fin 21 → ℕ → EReal) (k : Fin 21) (j : ℕ) : EReal :=
  Ideal.div (tileSum fun i => C k i * aff F i j) (tileSum (fun i => aff F i j) + eps)

/-- Batch image `n` of a `[8, 448, 56, 56]` array as a matrix of 448 rows whose column `i < 3136` is pixel
    `(i / 56, i % 56)`, and zero beyond the pixels. -/
def ftB (x : (⟨4, ![8, 448, 56, 56]⟩ : Shape).Idx → EReal) (n : Fin 8) (c : Fin 448) (i : ℕ) : EReal :=
  if h : i < 3136 then x (ix4 n c ⟨i / 56, by omega⟩ ⟨i % 56, Nat.mod_lt _ (by norm_num)⟩) else 0

/-- The same for a `[8, 21, 56, 56]` array. -/
def camB (x : (⟨4, ![8, 21, 56, 56]⟩ : Shape).Idx → EReal) (n : Fin 8) (k : Fin 21) (i : ℕ) : EReal :=
  if h : i < 3136 then x (ix4 n k ⟨i / 56, by omega⟩ ⟨i % 56, Nat.mod_lt _ (by norm_num)⟩) else 0

end Cert.Affinity

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.Algebra.lean ====
/-
  The algebra of the affinity certificate: on real entries, dividing once after the tiled sums
  (`kerOut`) equals dividing every entry before the sum over pixels (`refOut`).

  Every intermediate quantity is a real number: a sum of squares of reals is a nonnegative real, its
  square root is real, and adding the positive real `ε` makes every column length and every L1
  denominator a POSITIVE real. Division by a positive real `d` is multiplication by the nonnegative
  real `1 / d`, which distributes over finite sums of arbitrary extended reals. A zero column has
  scaled column zero, hence affinity zero with every column, so the 64 padding columns of the five
  tiles of 640 contribute nothing.
-/
import proofs.«110553_j36086315221369_2_alg».proof.Proof.Spec
import proofs.«110553_j36086315221369_2_alg».proof.Proof.LibERealSum

noncomputable section

namespace Cert.Affinity

open Idealize.ShloMosaic Cert.Lib

/-- `ε` is a positive real: the pattern `0x3727C5AC` is a normal number with biased exponent `110` and
    significand `2^23 + 2606508`, that is `10995116 · 2^(-40)`. -/
theorem eps_pos : ∃ r : ℝ, 0 < r ∧ eps = (r : EReal) := by
  refine ⟨(10995116 : ℝ) * (2 : ℝ) ^ (-40 : ℤ), by positivity, ?_⟩
  unfold eps
  simp [Ideal.ofBits, Ideal.ieee, -EReal.coe_mul]

/-- With real entries, the length of a column plus `ε` is a positive real. -/
theorem nrm_pos (F : Fin 448 → ℕ → EReal) (hF : ∀ c i, ∃ r : ℝ, F c i = (r : EReal)) (i : ℕ) :
    ∃ r : ℝ, 0 < r ∧ nrm F i = (r : EReal) := by
  obtain ⟨e, he, hee⟩ := eps_pos
  choose f hf using hF
  refine ⟨Real.sqrt (∑ c : Fin 448, f c i * f c i) + e,
    add_pos_of_nonneg_of_pos (Real.sqrt_nonneg _) he, ?_⟩
  have hs : (∑ c : Fin 448, F c i * F c i) = ((∑ c : Fin 448, f c i * f c i : ℝ) : EReal) := by
    rw [← sum_coe]
    exact Finset.sum_congr rfl fun c _ => by rw [hf, EReal.coe_mul]
  have h0 : ¬ (∑ c : Fin 448, f c i * f c i) < 0 :=
    not_lt.2 (Finset.sum_nonneg fun c _ => mul_self_nonneg _)
  rw [nrm, hs, Ideal.sqrt_coe, if_neg h0, hee, EReal.coe_add]

/-- With real entries, every entry of a scaled column is real. -/
theorem ftn_real (F : Fin 448 → ℕ → EReal) (hF : ∀ c i, ∃ r : ℝ, F c i = (r : EReal))
    (c : Fin 448) (i : ℕ) : ∃ r : ℝ, ftn F c i = (r : EReal) := by
  obtain ⟨n, hn, hnn⟩ := nrm_pos F hF i
  obtain ⟨f, hf⟩ := hF c i
  exact ⟨f * (1 / n), by rw [ftn, hnn, Ideal.div_coe hn.ne', hf, EReal.coe_mul]⟩

/-- A zero entry stays zero after scaling: `0 / n = 0 · (1 / n) = 0` for the positive real `n`. -/
theorem ftn_zero (F : Fin 448 → ℕ → EReal) (hF : ∀ c i, ∃ r : ℝ, F c i = (r : EReal))
    (c : Fin 448) (i : ℕ) (h0 : F c i = 0) : ftn F c i = 0 := by
  obtain ⟨n, hn, hnn⟩ := nrm_pos F hF i
  rw [ftn, hnn, Ideal.div_coe hn.ne', h0, zero_mul]

/-- With real entries, every affinity is a nonnegative real. -/
theorem aff_nonneg_real (F : Fin 448 → ℕ → EReal) (hF : ∀ c i, ∃ r : ℝ, F c i = (r : EReal))
    (i j : ℕ) : ∃ r : ℝ, 0 ≤ r ∧ aff F i j = (r : EReal) := by
  choose g hg using ftn_real F hF
  have hs : (∑ c : Fin 448, ftn F c i * ftn F c j)
      = ((∑ c : Fin 448, g c i * g c j : ℝ) : EReal) := by
    rw [← sum_coe]
    exact Finset.sum_congr rfl fun c _ => by rw [hg c i, hg c j, EReal.coe_mul]
  refine ⟨max (∑ c : Fin 448, g c i * g c j) 0, le_max_right _ _, ?_⟩
  rw [aff, hs]
  rcases le_total (∑ c : Fin 448, g c i * g c j) 0 with h | h
  · rw [max_eq_right h, max_eq_right (by exact_mod_cast h), EReal.coe_zero]
  · rw [max_eq_left h, max_eq_left (by exact_mod_cast h)]

/-- A zero column has affinity zero with every column. -/
theorem aff_zero (F : Fin 448 → ℕ → EReal) (hF : ∀ c i, ∃ r : ℝ, F c i = (r : EReal))
    (hF0 : ∀ c i, 3136 ≤ i → F c i = 0) (i j : ℕ) (hi : 3136 ≤ i) : aff F i j = 0 := by
  have h : (∑ c : Fin 448, ftn F c i * ftn F c j) = 0 :=
    Finset.sum_eq_zero fun c _ => by rw [ftn_zero F hF c i (hF0 c i hi), zero_mul]
  rw [aff, h, max_self]

/-- With real entries, the L1 denominator of an affinity column is a positive real. -/
theorem den_pos (F : Fin 448 → ℕ → EReal) (hF : ∀ c i, ∃ r : ℝ, F c i = (r : EReal)) (j : ℕ) :
    ∃ d : ℝ, 0 < d ∧ den F j = (d : EReal) := by
  obtain ⟨e, he, hee⟩ := eps_pos
  choose a ha0 ha using fun i => aff_nonneg_real F hF i j
  refine ⟨(∑ i : Fin 3136, a i.val) + e,
    add_pos_of_nonneg_of_pos (Finset.sum_nonneg fun i _ => ha0 _) he, ?_⟩
  have hs : (∑ i : Fin 3136, aff F i.val j) = ((∑ i : Fin 3136, a i.val : ℝ) : EReal) := by
    rw [← sum_coe]
    exact Finset.sum_congr rfl fun i _ => ha _
  rw [den, hs, hee, EReal.coe_add]

/-- `m` consecutive tiles of width `w` are the range `m · w`. -/
theorem sum_tiles (g : ℕ → EReal) (w m : ℕ) :
    ∑ I ∈ Finset.range m, ∑ il ∈ Finset.range w, g (I * w + il)
      = ∑ n ∈ Finset.range (m * w), g n := by
  induction m with
  | zero => simp
  | succ m ih => rw [Finset.sum_range_succ, ih, Nat.succ_mul, Finset.sum_range_add]

/-- Five tiles of 640 are the 3136 pixels followed by 64 columns; a summand that vanishes from column
    3136 on sums over the pixels alone. -/
theorem tileSum_eq (g : ℕ → EReal) (hg : ∀ i, 3136 ≤ i → g i = 0) :
    tileSum g = ∑ i : Fin 3136, g i.val := by
  have h1 : tileSum g = ∑ n ∈ Finset.range (5 * 640), g n := by
    rw [← sum_tiles]
    exact Finset.sum_congr rfl fun I _ => Fin.sum_univ_eq_sum_range (fun n => g (I * 640 + n)) 640
  have h2 : (5 * 640 : ℕ) = 3136 + 64 := by norm_num
  have h3 : ∑ x ∈ Finset.range 64, g (3136 + x) = 0 :=
    Finset.sum_eq_zero fun x _ => hg _ (Nat.le_add_right _ _)
  rw [h1, h2, Finset.sum_range_add, h3, add_zero, Fin.sum_univ_eq_sum_range g 3136]

/-- On real entries (zero beyond the pixels) dividing once after the tiled sums equals dividing every
    affinity entry before the sum over pixels: both denominators are the same positive real `d`, the
    padding columns contribute nothing, and the nonnegative real `1 / d` moves across the finite sum. -/
theorem kerOut_eq_refOut (F : Fin 448 → ℕ → EReal) (C : Fin 21 → ℕ → EReal)
    (hF : ∀ c i, ∃ r : ℝ, F c i = (r : EReal)) (hC : ∀ k i, ∃ r : ℝ, C k i = (r : EReal))
    (hF0 : ∀ c i, 3136 ≤ i → F c i = 0) (k : Fin 21) (j : ℕ) :
    kerOut F C k j = refOut F C k j := by
  obtain ⟨d, hd, hdd⟩ := den_pos F hF j
  have hA : tileSum (fun i => aff F i j) = ∑ i : Fin 3136, aff F i.val j :=
    tileSum_eq _ fun i hi => aff_zero F hF hF0 i j hi
  have hN : tileSum (fun i => C k i * aff F i j) = ∑ i : Fin 3136, C k i.val * aff F i.val j :=
    tileSum_eq _ fun i hi => by rw [aff_zero F hF hF0 i j hi, mul_zero]
  have hD : tileSum (fun i => aff F i j) + eps = (d : EReal) := by rw [hA, ← hdd, den]
  have hc : (0 : ℝ) ≤ 1 / d := by positivity
  rw [kerOut, hD, hN, Ideal.div_coe hd.ne', sum_mul_coe _ _ hc, refOut, hdd]
  exact Finset.sum_congr rfl fun i _ => by rw [Ideal.div_coe hd.ne', mul_assoc]

end Cert.Affinity

end
-- ==== Proof.Finite.lean ====
/-
  The precondition `finite_inputs` says that every entry of both input arrays is a real number.

  The printed predicate compares the absolute value of every entry with the pattern `0x7F800000` of `+∞`,
  reduces the comparisons of each array by `and` over all four axes, and joins the two results by `and`.
  When the result is 1, every comparison is 1: `max x (-x) < ⊤` at every entry `x`. On the extended reals
  that excludes `x = ⊤` and `x = ⊥` (both have `max x (-x) = ⊤`), so `x` is a real.
-/
import proofs.«110553_j36086315221369_2_alg».proof.Pre_finite_inputs
import proofs.«110553_j36086315221369_2_alg».proof.Proof.Spec
import Idealize.ShloMosaic.Lib.ReduceAll
import Idealize.ShloMosaic.Lib.ValueIdx

noncomputable section

namespace Cert.Affinity

open Idealize.ShloMosaic Idealize.ShloMosaic.ValueIdx

/-- The shape with no axes has a single index. -/
instance : Subsingleton Cert.Pre_finite_inputs.S_.Idx := ⟨fun a b => funext fun d => d.elim0⟩

/-- The pattern `0x7F800000` (all-ones exponent, zero significand, sign clear) denotes `+∞`. -/
theorem ofBits_inf : Ideal.ofBits .f32 0x7F800000#32 = ⊤ := by
  simp [Ideal.ofBits, Ideal.ieee]

/-- An extended real whose absolute value is below `+∞` is a real: at `⊤` and at `⊥` the absolute value
    `max x (-x)` is `⊤`. -/
theorem real_of_abs_lt (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- The precondition gives: every entry of both inputs is a real. -/
theorem real_of_pre [Cert.Pre_finite_inputs.Facts]
    (x0 : FVec Ideal Cert.Pre_finite_inputs.S8x21x56x56 .f32) (x1 : FVec Ideal Cert.Pre_finite_inputs.S8x448x56x56 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  exact ⟨fun i => real_of_abs_lt _ (Host.reduce_andi_all _ _ _ _ _ ha i),
    fun i => real_of_abs_lt _ (Host.reduce_andi_all _ _ _ _ _ hb i)⟩

/-- Every entry of a batch image of the feature array is real. -/
theorem ftB_real (x : (⟨4, ![8, 448, 56, 56]⟩ : Shape).Idx → EReal)
    (hx : ∀ i, ∃ r : ℝ, x i = (r : EReal)) (n : Fin 8) (c : Fin 448) (i : ℕ) :
    ∃ r : ℝ, ftB x n c i = (r : EReal) := by
  unfold ftB
  split
  · exact hx _
  · exact ⟨0, EReal.coe_zero.symm⟩

/-- Every entry of a batch image of the class-activation array is real. -/
theorem camB_real (x : (⟨4, ![8, 21, 56, 56]⟩ : Shape).Idx → EReal)
    (hx : ∀ i, ∃ r : ℝ, x i = (r : EReal)) (n : Fin 8) (k : Fin 21) (i : ℕ) :
    ∃ r : ℝ, camB x n k i = (r : EReal) := by
  unfold camB
  split
  · exact hx _
  · exact ⟨0, EReal.coe_zero.symm⟩

/-- A batch image of the feature array is zero beyond the 3136 pixels. -/
theorem ftB_zero (x : (⟨4, ![8, 448, 56, 56]⟩ : Shape).Idx → EReal) (n : Fin 8) (c : Fin 448) (i : ℕ)
    (hi : 3136 ≤ i) : ftB x n c i = 0 := by
  unfold ftB
  exact dif_neg (Nat.not_lt.2 hi)

end Cert.Affinity

end
-- ==== Proof.RefValue.lean ====
/-
  The reference program, read one operation at a time, computes `Cert.Affinity.refOut`.

  The reference flattens the 56·56 pixels of each batch image into one axis of 3136 columns, so the
  flattened arrays are the matrices `ftB x1 n` (448 rows) and `camB x0 n` (21 rows) at the columns
  `p < 3136`. Stage by stage: the column lengths plus `ε` are `nrm`; the scaled columns are `ftn`;
  the positive part of their inner products is `aff`; the column sums plus `ε` are `den`; the
  normalised affinity is `aff / den`; and the last product over the pixels is `refOut`. The final
  reshape sends pixel `(r, s)` of the result to column `r · 56 + s`.

  Each stage is stated at explicit coordinates `n : Fin 8`, `c : Fin 448`, `k : Fin 21`,
  `p q : Fin 3136`; the only arithmetic is the row-major flattening of an index: linear arithmetic with division by literals.
-/
import proofs.«110553_j36086315221369_2_alg».proof.Proof.Spec
import proofs.«110553_j36086315221369_2_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The flattened inputs -/

/-- Column `p` of the flattened `[8, 448, 3136]` array is pixel `(p / 56, p % 56)`. -/
theorem idx_v1 (n : Fin 8) (c : Fin 448) (p : Fin 3136) :
    idx_main_v1 (ix3 n c p)
      = ix4 n c ⟨p.val / 56, by have := p.isLt; omega⟩ ⟨p.val % 56, Nat.mod_lt _ (by norm_num)⟩ := by
  funext a
  apply Fin.ext
  have hn := n.isLt; have hc := c.isLt; have hp := p.isLt
  match a with
  | ⟨0, _⟩ => show ((n.val * 448 + c.val) * 3136 + p.val) / 1404928 = n.val; omega
  | ⟨1, _⟩ => show ((n.val * 448 + c.val) * 3136 + p.val) / 3136 % 448 = c.val; omega
  | ⟨2, _⟩ => show ((n.val * 448 + c.val) * 3136 + p.val) / 56 % 56 = p.val / 56; omega
  | ⟨3, _⟩ => show ((n.val * 448 + c.val) * 3136 + p.val) % 56 = p.val % 56; omega

/-- The flattened feature array is the feature matrix of its batch image. -/
theorem v1_at (x1 : (⟨S8x448x56x56, .f32⟩ : BufTy).Contents (Elt Ideal)) (n : Fin 8) (c : Fin 448) (p : Fin 3136) :
    val_main_v1 (F := Ideal) x1 (ix3 n c p) = Cert.Affinity.ftB x1 n c p.val := by
  rw [val_main_v1_apply, idx_v1]
  unfold Cert.Affinity.ftB
  rw [dif_pos p.isLt]

/-- Column `p` of the flattened `[8, 21, 3136]` array is pixel `(p / 56, p % 56)`. -/
theorem idx_v0 (n : Fin 8) (k : Fin 21) (p : Fin 3136) :
    idx_main_v0 (ix3 n k p)
      = ix4 n k ⟨p.val / 56, by have := p.isLt; omega⟩ ⟨p.val % 56, Nat.mod_lt _ (by norm_num)⟩ := by
  funext a
  apply Fin.ext
  have hn := n.isLt; have hk := k.isLt; have hp := p.isLt
  match a with
  | ⟨0, _⟩ => show ((n.val * 21 + k.val) * 3136 + p.val) / 65856 = n.val; omega
  | ⟨1, _⟩ => show ((n.val * 21 + k.val) * 3136 + p.val) / 3136 % 21 = k.val; omega
  | ⟨2, _⟩ => show ((n.val * 21 + k.val) * 3136 + p.val) / 56 % 56 = p.val / 56; omega
  | ⟨3, _⟩ => show ((n.val * 21 + k.val) * 3136 + p.val) % 56 = p.val % 56; omega

/-- The flattened activation array is the activation matrix of its batch image. -/
theorem v0_at (x0 : (⟨S8x21x56x56, .f32⟩ : BufTy).Contents (Elt Ideal)) (n : Fin 8) (k : Fin 21) (p : Fin 3136) :
    val_main_v0 (F := Ideal) x0 (ix3 n k p) = Cert.Affinity.camB x0 n k p.val := by
  rw [val_main_v0_apply, idx_v0]
  unfold Cert.Affinity.camB
  rw [dif_pos p.isLt]

/-! ## Column lengths and scaled columns -/

/-- The sum over channels behind the broadcast of the column lengths reads channel `k` of column `p`. -/
theorem idx_nrm (n : Fin 8) (z : Fin 1) (p : Fin 3136) (k : Fin 448) :
    idx_main_call0_v1 (idx_main_call0_v2 (ix3 n z p)) k = ix3 n k p := by
  funext a
  apply Fin.ext
  match a with
  | ⟨0, _⟩ => rfl
  | ⟨1, _⟩ => rfl
  | ⟨2, _⟩ => rfl

/-- The length of column `p`, plus `ε`. -/
theorem v4_at (x1 : (⟨S8x448x56x56, .f32⟩ : BufTy).Contents (Elt Ideal)) (n : Fin 8) (z : Fin 1) (p : Fin 3136) :
    val_main_v4 (F := Ideal) x1 (ix3 n z p) = Cert.Affinity.nrm (Cert.Affinity.ftB x1 n) p.val := by
  rw [val_main_v4_apply, val_main_v2_apply, val_main_call0_v2_apply, val_main_call0_v1_apply,
    val_main_v3_apply, val_main_cst_apply, val_main_call0_cst_apply]
  simp only [val_main_call0_v0_apply, idx_nrm, v1_at, Ideal.hostUnary_sqrt_def, Ideal.addf_def,
    Ideal.mulf_def, Ideal.ofBits_def, Ideal.ofBits_zero_f32, zero_add]
  rfl

/-- The broadcast of the column lengths over the channels reads column `p`. -/
theorem idx_v5 (n : Fin 8) (c : Fin 448) (p : Fin 3136) :
    idx_main_v5 (ix3 n c p) = ix3 n (0 : Fin 1) p := by
  funext a
  apply Fin.ext
  match a with
  | ⟨0, _⟩ => rfl
  | ⟨1, _⟩ => rfl
  | ⟨2, _⟩ => rfl

/-- Column `p` scaled by its length. -/
theorem v6_at (x1 : (⟨S8x448x56x56, .f32⟩ : BufTy).Contents (Elt Ideal)) (n : Fin 8) (c : Fin 448) (p : Fin 3136) :
    val_main_v6 (F := Ideal) x1 (ix3 n c p) = Cert.Affinity.ftn (Cert.Affinity.ftB x1 n) c p.val := by
  rw [val_main_v6_apply, val_main_v5_apply, idx_v5, v4_at, v1_at, Ideal.hostDivf_def]
  rfl

/-! ## The affinity and its column sums -/

/-- The inner product of columns `p` and `q` reads channel `k` of column `p` on the left. -/
theorem lidx_v7 (n : Fin 8) (p q : Fin 3136) (k : Fin 448) :
    lidx_main_v7 (ix3 n p q) k = ix3 n k p := by
  funext a
  apply Fin.ext
  match a with
  | ⟨0, _⟩ => rfl
  | ⟨1, _⟩ => rfl
  | ⟨2, _⟩ => rfl

/-- … and channel `k` of column `q` on the right. -/
theorem ridx_v7 (n : Fin 8) (p q : Fin 3136) (k : Fin 448) :
    ridx_main_v7 (ix3 n p q) k = ix3 n k q := by
  funext a
  apply Fin.ext
  match a with
  | ⟨0, _⟩ => rfl
  | ⟨1, _⟩ => rfl
  | ⟨2, _⟩ => rfl

/-- The affinity of columns `p` and `q`. -/
theorem v8_at (x1 : (⟨S8x448x56x56, .f32⟩ : BufTy).Contents (Elt Ideal)) (n : Fin 8) (p q : Fin 3136) :
    val_main_v8 (F := Ideal) x1 (ix3 n p q) = Cert.Affinity.aff (Cert.Affinity.ftB x1 n) p.val q.val := by
  rw [val_main_v8_apply, val_main_v7_apply, val_main_call1_v0_apply, val_main_call1_cst_apply]
  simp only [lidx_v7, ridx_v7, v6_at, Ideal.maximumf_def, Ideal.ofBits_def, Ideal.ofBits_zero_f32]
  rfl

/-- The column sum behind the broadcast of the denominators reads row `k` of column `q`. -/
theorem idx_den (n : Fin 8) (z : Fin 1) (q : Fin 3136) (k : Fin 3136) :
    idx_main_v9 (idx_main_v10 (ix3 n z q)) k = ix3 n k q := by
  funext a
  apply Fin.ext
  match a with
  | ⟨0, _⟩ => rfl
  | ⟨1, _⟩ => rfl
  | ⟨2, _⟩ => rfl

/-- The L1 denominator of affinity column `q`. -/
theorem v12_at (x1 : (⟨S8x448x56x56, .f32⟩ : BufTy).Contents (Elt Ideal)) (n : Fin 8) (z : Fin 1) (q : Fin 3136) :
    val_main_v12 (F := Ideal) x1 (ix3 n z q) = Cert.Affinity.den (Cert.Affinity.ftB x1 n) q.val := by
  rw [val_main_v12_apply, val_main_v10_apply, val_main_v9_apply, val_main_v11_apply,
    val_main_cst_1_apply, val_main_cst_0_apply]
  simp only [idx_den, v8_at, Ideal.addf_def, Ideal.ofBits_def, Ideal.ofBits_zero_f32, zero_add]
  rfl

/-- The broadcast of the denominators over the rows reads column `q`. -/
theorem idx_v13 (n : Fin 8) (p q : Fin 3136) :
    idx_main_v13 (ix3 n p q) = ix3 n (0 : Fin 1) q := by
  funext a
  apply Fin.ext
  match a with
  | ⟨0, _⟩ => rfl
  | ⟨1, _⟩ => rfl
  | ⟨2, _⟩ => rfl

/-- The normalised affinity of columns `p` and `q`. -/
theorem v14_at (x1 : (⟨S8x448x56x56, .f32⟩ : BufTy).Contents (Elt Ideal)) (n : Fin 8) (p q : Fin 3136) :
    val_main_v14 (F := Ideal) x1 (ix3 n p q)
      = Ideal.div (Cert.Affinity.aff (Cert.Affinity.ftB x1 n) p.val q.val)
          (Cert.Affinity.den (Cert.Affinity.ftB x1 n) q.val) := by
  rw [val_main_v14_apply, val_main_v13_apply, idx_v13, v12_at, v8_at, Ideal.hostDivf_def]

/-! ## The product with the activations, and the result -/

/-- The last product reads activation row `k` at pixel `i` on the left. -/
theorem lidx_v15 (n : Fin 8) (k : Fin 21) (q : Fin 3136) (i : Fin 3136) :
    lidx_main_v15 (ix3 n k q) i = ix3 n k i := by
  funext a
  apply Fin.ext
  match a with
  | ⟨0, _⟩ => rfl
  | ⟨1, _⟩ => rfl
  | ⟨2, _⟩ => rfl

/-- … and row `i` of normalised-affinity column `q` on the right. -/
theorem ridx_v15 (n : Fin 8) (k : Fin 21) (q : Fin 3136) (i : Fin 3136) :
    ridx_main_v15 (ix3 n k q) i = ix3 n i q := by
  funext a
  apply Fin.ext
  match a with
  | ⟨0, _⟩ => rfl
  | ⟨1, _⟩ => rfl
  | ⟨2, _⟩ => rfl

/-- The flattened result: normalise first, then multiply. -/
theorem v15_at (x0 : (⟨S8x21x56x56, .f32⟩ : BufTy).Contents (Elt Ideal))
    (x1 : (⟨S8x448x56x56, .f32⟩ : BufTy).Contents (Elt Ideal)) (n : Fin 8) (k : Fin 21) (q : Fin 3136) :
    val_main_v15 (F := Ideal) x0 x1 (ix3 n k q)
      = Cert.Affinity.refOut (Cert.Affinity.ftB x1 n) (Cert.Affinity.camB x0 n) k q.val := by
  rw [val_main_v15_apply]
  simp only [lidx_v15, ridx_v15, v0_at, v14_at]
  rfl

/-- Pixel `(r, s)` of the result is column `r · 56 + s` of the flattened result. -/
theorem idx_v16 (n : Fin 8) (k : Fin 21) (r s : Fin 56) :
    idx_main_v16 (ix4 n k r s)
      = ix3 n k ⟨r.val * 56 + s.val, by have := r.isLt; have := s.isLt; omega⟩ := by
  funext a
  apply Fin.ext
  have hn := n.isLt; have hk := k.isLt; have hr := r.isLt; have hs := s.isLt
  match a with
  | ⟨0, _⟩ => show (((n.val * 21 + k.val) * 56 + r.val) * 56 + s.val) / 65856 = n.val; omega
  | ⟨1, _⟩ => show (((n.val * 21 + k.val) * 56 + r.val) * 56 + s.val) / 3136 % 21 = k.val; omega
  | ⟨2, _⟩ => show (((n.val * 21 + k.val) * 56 + r.val) * 56 + s.val) % 3136 = r.val * 56 + s.val; omega

/-- The reference's result at pixel `(i 2, i 3)` of class `i 1` in batch image `i 0` is `refOut` of that
    image's feature and activation matrices at column `(i 2) · 56 + (i 3)`. -/
theorem result_apply (x0 : (⟨S8x21x56x56, .f32⟩ : BufTy).Contents (Elt Ideal))
    (x1 : (⟨S8x448x56x56, .f32⟩ : BufTy).Contents (Elt Ideal)) (i : S8x21x56x56.Idx) :
    val_main_v16 (F := Ideal) x0 x1 i
      = Cert.Affinity.refOut (Cert.Affinity.ftB x1 (i 0)) (Cert.Affinity.camB x0 (i 0)) (i 1)
          ((i 2).val * 56 + (i 3).val) := by
  obtain ⟨n, k, r, s, rfl⟩ : ∃ (n : Fin 8) (k : Fin 21) (r s : Fin 56), i = ix4 n k r s :=
    ⟨i 0, i 1, i 2, i 3, eq_ix4 i⟩
  rw [val_main_v16_apply, idx_v16, v15_at]

end Cert.ReferenceIdeal.RefValue

end
-- ==== Proof.KBody.lean ====
/-
  The kernel body's arithmetic, read index by index on the extended reals.

  One grid point works on an output tile of 640 columns `J` of one batch image. Before its loop it
  loads the tile's 448 feature rows and scales every column to unit length (plus `ε`); each of the five
  trips `I` loads a tile of feature rows and a tile of activation rows, scales the feature tile the same
  way, forms the 640 × 640 block of affinities `max (∑ c, ftn c i · ftn c j) 0` between the trip's columns
  `i` and the output columns `j`, and adds the block's column sums and the activation tile's product with
  the block to two carried accumulators; after the loop the second accumulator is divided by the first
  plus `ε`. Here each of these steps is read at an index, over arbitrary tiles.
-/
import proofs.«110553_j36086315221369_2_alg».proof.Proof.Gen.KernelIdeal.Skeleton
import proofs.«110553_j36086315221369_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Body

open Cert.KernelIdeal Cert.KernelIdeal.Gen Cert.Affinity

/-- A tile's columns scaled to unit length: `x / (sqrt (sum over rows of x²) + ε)`. -/
def scaled (v : Vec Ideal S1x448x640 .f32) : FVec Ideal S448x640 .f32 :=
  divf (shapeCast S448x640 v shapeCasts_S1x448x640_S448x640)
    (broadcastTo S448x640
      (addf (sqrt (shapeCast S1x640
          (multiReduction .add [0] S640
            (mulf (shapeCast S448x640 v shapeCasts_S1x448x640_S448x640) (shapeCast S448x640 v shapeCasts_S1x448x640_S448x640))
            0x00000000#32 reduces_S448x640_S640 (.inl rfl) rfl) shapeCasts_S640_S1x640))
        (broadcast S1x640 (Scalar.ofBits .f32 0x3727C5AC#32)))
      broadcasts_S1x640_S448x640)

/-- A sum down the 448 rows of a `[448, 640]` matrix, at column `l`. -/
theorem colsum448 (src : FVec Ideal S448x640 .f32) (hφ : FKind.Formats .f32)
    (hacc : (0x00000000#32 : BitVec 32) = 0x00000000#32) (l : Fin 640) :
    multiReduction .add [0] S640 src 0x00000000#32 reduces_S448x640_S640 hφ hacc (ix1 l) = ∑ k : Fin 448, src (ix2 k l) :=
  (Ideal.multiReduction_add_single src 0x00000000#32 reduces_S448x640_S640 hφ hacc (ix1 l)).trans
    (Finset.sum_congr rfl fun k _ => congrArg src
      (funext fun a => Fin.ext (by match a with | ⟨0, _⟩ => rfl | ⟨1, _⟩ => rfl)))

/-- A sum down the 640 rows of a `[640, 640]` matrix, at column `l`. -/
theorem colsum640 (src : FVec Ideal S640x640 .f32) (hφ : FKind.Formats .f32)
    (hacc : (0x00000000#32 : BitVec 32) = 0x00000000#32) (l : Fin 640) :
    multiReduction .add [0] S640 src 0x00000000#32 reduces_S640x640_S640 hφ hacc (ix1 l) = ∑ k : Fin 640, src (ix2 k l) :=
  (Ideal.multiReduction_add_single src 0x00000000#32 reduces_S640x640_S640 hφ hacc (ix1 l)).trans
    (Finset.sum_congr rfl fun k _ => congrArg src
      (funext fun a => Fin.ext (by match a with | ⟨0, _⟩ => rfl | ⟨1, _⟩ => rfl)))

/-- Row `c`, column `l` of the scaled tile: the entry over the column's length plus `ε`. -/
theorem scaled_apply (v : Vec Ideal S1x448x640 .f32) (c : Fin 448) (l : Fin 640) :
    scaled v (ix2 c l) = Ideal.div (v (ix3 0 c l))
      (Ideal.sqrt (∑ c' : Fin 448, v (ix3 0 c' l) * v (ix3 0 c' l)) + Ideal.ofBits .f32 0x3727C5AC#32) := by
  unfold scaled
  rw [divf_apply, shapeCast_1ab_ab_apply, broadcastTo_1b_ab_apply, addf_apply]
  show Ideal.div _ (Ideal.sqrt (shapeCast S1x640 _ shapeCasts_S640_S1x640 (ix2 0 l)) + Ideal.ofBits .f32 0x3727C5AC#32) = _
  rw [shapeCast_a_1a_apply]
  refine congrArg (fun z => Ideal.div _ (Ideal.sqrt z + _))
    ((colsum448 _ _ _ l).trans (Finset.sum_congr rfl fun k _ => ?_))
  rw [mulf_apply, shapeCast_1ab_ab_apply]

/-- A tile that holds columns `o, o+1, …` of a matrix `F` scales to the matrix's scaled columns. -/
theorem scaled_of_cols (v : Vec Ideal S1x448x640 .f32) (F : Fin 448 → ℕ → EReal) (o : ℕ)
    (hv : ∀ (c : Fin 448) (l : Fin 640), v (ix3 0 c l) = F c (o + l.val)) (c : Fin 448) (l : Fin 640) :
    scaled v (ix2 c l) = ftn F c (o + l.val) := by
  rw [scaled_apply]
  unfold ftn nrm eps
  simp only [hv]

/-- The affinity block is the positive part of the product of the two scaled tiles, contracted over the rows. -/
theorem pay3_eq (v3 v28 : Vec Ideal S1x448x640 .f32) :
    k0_pay3 v3 v28 = maximumf (matmul dot_S448x640_S448x640_S640x640_0_0_1_1_n_n none
        (truncf .bf16 (scaled v28) bitsLt_bf16_f32) (truncf .bf16 (scaled v3) bitsLt_bf16_f32)
        (constant S640x640 .f32 0x00000000#32)) (broadcast S640x640 (Scalar.ofBits .f32 0x00000000#32)) := rfl

theorem lhsA_0 (j : S640x640.Idx) (q : dot_S448x640_S448x640_S640x640_0_0_1_1_n_n.contr.Idx) :
    (dot_S448x640_S448x640_S640x640_0_0_1_1_n_n.lhsIdx j q 0).val = (q ⟨0, by decide⟩).val :=
  dot_S448x640_S448x640_S640x640_0_0_1_1_n_n.lhsIdx_val_of_single rfl j q
theorem lhsA_1 (j : S640x640.Idx) (q : dot_S448x640_S448x640_S640x640_0_0_1_1_n_n.contr.Idx) :
    (dot_S448x640_S448x640_S640x640_0_0_1_1_n_n.lhsIdx j q 1).val = (j 0).val := by
  unfold DotDims.lhsIdx
  rw [dif_neg (show ¬(1 : Fin S448x640.rank) ∈ dot_S448x640_S448x640_S640x640_0_0_1_1_n_n.lhsBatch by decide),
    dif_pos (show (1 : Fin S448x640.rank) ∈ dot_S448x640_S448x640_S640x640_0_0_1_1_n_n.lhsNonContracting by decide)]
  rfl
theorem rhsA_0 (j : S640x640.Idx) (q : dot_S448x640_S448x640_S640x640_0_0_1_1_n_n.contr.Idx) :
    (dot_S448x640_S448x640_S640x640_0_0_1_1_n_n.rhsIdx j q 0).val = (q ⟨0, by decide⟩).val :=
  dot_S448x640_S448x640_S640x640_0_0_1_1_n_n.rhsIdx_val_of_single rfl j q
theorem rhsA_1 (j : S640x640.Idx) (q : dot_S448x640_S448x640_S640x640_0_0_1_1_n_n.contr.Idx) :
    (dot_S448x640_S448x640_S640x640_0_0_1_1_n_n.rhsIdx j q 1).val = (j 1).val := by
  unfold DotDims.rhsIdx
  rw [dif_neg (show ¬(1 : Fin S448x640.rank) ∈ dot_S448x640_S448x640_S640x640_0_0_1_1_n_n.rhsBatch by decide),
    dif_pos (show (1 : Fin S448x640.rank) ∈ dot_S448x640_S448x640_S640x640_0_0_1_1_n_n.rhsNonContracting by decide)]
  rfl

/-- Entry `(il, jl)` of the affinity block: the positive part of the inner product of scaled column `il` of the
    trip's tile and scaled column `jl` of the output tile. -/
theorem pay3_apply (v3 v28 : Vec Ideal S1x448x640 .f32) (il jl : Fin 640) :
    k0_pay3 v3 v28 (ix2 il jl) = max (∑ c : Fin 448, scaled v28 (ix2 c il) * scaled v3 (ix2 c jl)) 0 := by
  rw [pay3_eq, maximumf_apply, broadcast_apply]
  simp only [matmul]
  rw [Ideal.matmul_constant_zero_apply]
  show max _ (Ideal.ofBits .f32 0x00000000#32) = _
  rw [Ideal.ofBits_zero_f32, ← Equiv.sum_comp (contrEquiv1 dot_S448x640_S448x640_S640x640_0_0_1_1_n_n 448 rfl rfl).symm]
  refine congrArg (max · 0) (Finset.sum_congr rfl fun k _ => ?_)
  have hk := contrEquiv1_symm_val dot_S448x640_S448x640_S640x640_0_0_1_1_n_n 448 rfl rfl k
  have el : dot_S448x640_S448x640_S640x640_0_0_1_1_n_n.lhsIdx (ix2 il jl)
      ((contrEquiv1 dot_S448x640_S448x640_S640x640_0_0_1_1_n_n 448 rfl rfl).symm k) = ix2 k il :=
    funext fun a => Fin.ext (by
      match a with
      | ⟨0, _⟩ => exact (lhsA_0 _ _).trans hk
      | ⟨1, _⟩ => exact lhsA_1 _ _)
  have er : dot_S448x640_S448x640_S640x640_0_0_1_1_n_n.rhsIdx (ix2 il jl)
      ((contrEquiv1 dot_S448x640_S448x640_S640x640_0_0_1_1_n_n 448 rfl rfl).symm k) = ix2 k jl :=
    funext fun a => Fin.ext (by
      match a with
      | ⟨0, _⟩ => exact (rhsA_0 _ _).trans hk
      | ⟨1, _⟩ => exact rhsA_1 _ _)
  rw [truncf_apply, truncf_apply, el, er]

/-- With both tiles columns of one matrix `F` (the trip's from `oi`, the output's from `oj`), the block's entry is the
    affinity of columns `oi + il` and `oj + jl`. -/
theorem pay3_of_cols (v3 v28 : Vec Ideal S1x448x640 .f32) (F : Fin 448 → ℕ → EReal) (oi oj : ℕ)
    (h3 : ∀ (c : Fin 448) (l : Fin 640), v3 (ix3 0 c l) = F c (oj + l.val))
    (h28 : ∀ (c : Fin 448) (l : Fin 640), v28 (ix3 0 c l) = F c (oi + l.val)) (il jl : Fin 640) :
    k0_pay3 v3 v28 (ix2 il jl) = aff F (oi + il.val) (oj + jl.val) := by
  rw [pay3_apply]
  unfold aff
  simp only [scaled_of_cols v28 F oi h28, scaled_of_cols v3 F oj h3]

/-- One trip adds the block's column sums to the first accumulator. -/
theorem pay4_apply (v3 v28 : Vec Ideal S1x448x640 .f32) (s : FVec Ideal S1x640 .f32) (jl : Fin 640) :
    k0_pay4 v3 s v28 (ix2 0 jl) = s (ix2 0 jl) + ∑ il : Fin 640, k0_pay3 v3 v28 (ix2 il jl) := by
  unfold k0_pay4
  rw [addf_apply, shapeCast_a_1a_apply]
  exact congrArg (s (ix2 0 jl) + ·) (colsum640 _ _ _ jl)

theorem lhsB_0 (j : S21x640.Idx) (q : dot_S21x640_S640x640_S21x640_1_0_0_1_n_n.contr.Idx) :
    (dot_S21x640_S640x640_S21x640_1_0_0_1_n_n.lhsIdx j q 0).val = (j 0).val := by
  unfold DotDims.lhsIdx
  rw [dif_neg (show ¬(0 : Fin S21x640.rank) ∈ dot_S21x640_S640x640_S21x640_1_0_0_1_n_n.lhsBatch by decide),
    dif_pos (show (0 : Fin S21x640.rank) ∈ dot_S21x640_S640x640_S21x640_1_0_0_1_n_n.lhsNonContracting by decide)]
  rfl
theorem lhsB_1 (j : S21x640.Idx) (q : dot_S21x640_S640x640_S21x640_1_0_0_1_n_n.contr.Idx) :
    (dot_S21x640_S640x640_S21x640_1_0_0_1_n_n.lhsIdx j q 1).val = (q ⟨0, by decide⟩).val :=
  dot_S21x640_S640x640_S21x640_1_0_0_1_n_n.lhsIdx_val_of_single rfl j q
theorem rhsB_0 (j : S21x640.Idx) (q : dot_S21x640_S640x640_S21x640_1_0_0_1_n_n.contr.Idx) :
    (dot_S21x640_S640x640_S21x640_1_0_0_1_n_n.rhsIdx j q 0).val = (q ⟨0, by decide⟩).val :=
  dot_S21x640_S640x640_S21x640_1_0_0_1_n_n.rhsIdx_val_of_single rfl j q
theorem rhsB_1 (j : S21x640.Idx) (q : dot_S21x640_S640x640_S21x640_1_0_0_1_n_n.contr.Idx) :
    (dot_S21x640_S640x640_S21x640_1_0_0_1_n_n.rhsIdx j q 1).val = (j 1).val := by
  unfold DotDims.rhsIdx
  rw [dif_neg (show ¬(1 : Fin S640x640.rank) ∈ dot_S21x640_S640x640_S21x640_1_0_0_1_n_n.rhsBatch by decide),
    dif_pos (show (1 : Fin S640x640.rank) ∈ dot_S21x640_S640x640_S21x640_1_0_0_1_n_n.rhsNonContracting by decide)]
  rfl

/-- One trip adds the activation tile's product with the block to the second accumulator. -/
theorem pay5_apply (v3 v28 : Vec Ideal S1x448x640 .f32) (acc : FVec Ideal S21x640 .f32) (v46 : Vec Ideal S1x21x640 .f32)
    (k : Fin 21) (jl : Fin 640) :
    k0_pay5 v3 acc v28 v46 (ix2 k jl)
      = acc (ix2 k jl) + ∑ il : Fin 640, v46 (ix3 0 k il) * k0_pay3 v3 v28 (ix2 il jl) := by
  unfold k0_pay5
  rw [addf_apply]
  simp only [matmul]
  rw [Ideal.matmul_constant_zero_apply,
    ← Equiv.sum_comp (contrEquiv1 dot_S21x640_S640x640_S21x640_1_0_0_1_n_n 640 rfl rfl).symm]
  refine congrArg (acc (ix2 k jl) + ·) (Finset.sum_congr rfl fun q _ => ?_)
  have hk := contrEquiv1_symm_val dot_S21x640_S640x640_S21x640_1_0_0_1_n_n 640 rfl rfl q
  have el : dot_S21x640_S640x640_S21x640_1_0_0_1_n_n.lhsIdx (ix2 k jl)
      ((contrEquiv1 dot_S21x640_S640x640_S21x640_1_0_0_1_n_n 640 rfl rfl).symm q) = ix2 k q :=
    funext fun a => Fin.ext (by
      match a with
      | ⟨0, _⟩ => exact lhsB_0 _ _
      | ⟨1, _⟩ => exact (lhsB_1 _ _).trans hk)
  have er : dot_S21x640_S640x640_S21x640_1_0_0_1_n_n.rhsIdx (ix2 k jl)
      ((contrEquiv1 dot_S21x640_S640x640_S21x640_1_0_0_1_n_n 640 rfl rfl).symm q) = ix2 q jl :=
    funext fun a => Fin.ext (by
      match a with
      | ⟨0, _⟩ => exact (rhsB_0 _ _).trans hk
      | ⟨1, _⟩ => exact rhsB_1 _ _)
  rw [truncf_apply, truncf_apply, el, er, shapeCast_1ab_ab_apply]

/-- After the loop: the second accumulator over the first plus `ε`. -/
theorem pay6_apply (s : FVec Ideal S1x640 .f32) (acc : FVec Ideal S21x640 .f32) (u : Fin 1) (k : Fin 21) (jl : Fin 640) :
    k0_pay6 s acc (ix3 u k jl) = Ideal.div (acc (ix2 k jl)) (s (ix2 0 jl) + eps) := by
  unfold k0_pay6 eps
  rw [shapeCast_ab_1ab_apply, divf_apply, broadcastTo_1b_ab_apply, addf_apply, broadcast_apply]
  rfl

end Cert.KernelIdeal.Body

end
-- ==== Proof.KLoop.lean ====
/-
  One grid point of the kernel, read off its generated run: what the body leaves in the output's
  staging buffer, index by index.

  The run's one covering store writes `acc / (s + ε)` of the two values the loop carries. The loop's
  carried pair before trip `n` is a recursion on the trips; opened once (a trip adds the affinity block's
  column sums to `s` and the activation tile's product with the block to `acc`), an induction on the trip
  shows the pair before trip `n` to be the sums over the first `n` tiles — so after five trips the store's
  value at column `jl` of output tile `J` is `kerOut` of the point's two input blocks at column `J · 640 + jl`.
-/
import proofs.«110553_j36086315221369_2_alg».proof.Proof.Gen.KernelIdeal.Frame
import proofs.«110553_j36086315221369_2_alg».proof.Proof.KBody
import Idealize.ShloMosaic.Lib.Tactic

noncomputable section

open Idealize.ShloMosaic Idealize.ShloMosaic.TcCoe Idealize.ShloMosaic.ValueIdx Idealize.SL.Sem

namespace Cert.KernelIdeal.Point

open Cert.KernelIdeal Cert.KernelIdeal.Gen Cert.Affinity Cert.KernelIdeal.Body

theorem hz3 : (![0, 0, 0] : Fin 3 → Nat) = fun _ => 0 := funext fun a => by fin_cases a <;> rfl

/-- A `[1, 448, 3200]` block as a matrix of 448 rows with columns indexed by the naturals (zero past the block). -/
def colF (x0 : Vec Ideal S1x448x3200 .f32) (c : Fin 448) (p : ℕ) : EReal :=
  if h : p < 3200 then x0 (ix3 0 c ⟨p, h⟩) else 0

/-- A `[1, 21, 3200]` block likewise. -/
def colC (x1 : Vec Ideal S1x21x3200 .f32) (k : Fin 21) (p : ℕ) : EReal :=
  if h : p < 3200 then x1 (ix3 0 k ⟨p, h⟩) else 0

/-- A tile of 640 columns loaded from column `o` of the feature block holds the block's columns `o, o+1, …`. -/
theorem tileF (a2 : Memref sig .tc .vmem S1x448x3200 .f32) (h2 : a2.IsWhole) (x0 : Vec Ideal S1x448x3200 .f32)
    (off : Fin 3 → Nat) (o : ℕ) (hoff : off = ![0, 0, o]) (hb : o + 640 ≤ 3200)
    (inb : ∀ a, off a + S1x448x640.size a ≤ S1x448x3200.size a) (c : Fin 448) (l : Fin 640) :
    (View.readAt (Elt Ideal) a2.view (Rect.unit (s := S1x448x3200) off S1x448x640.size inb).toLoadRect (h2.unread x0)
      : Vec Ideal S1x448x640 .f32) (ix3 0 c l) = colF x0 c (o + l.val) := by
  subst hoff
  rw [View.readAt_eq_ld, h2.read_unread]
  unfold colF
  rw [dif_pos (by have := l.isLt; omega)]
  show x0 _ = x0 _
  congr 1
  funext a
  apply Fin.ext
  match a with
  | ⟨0, _⟩ => rfl
  | ⟨1, _⟩ => show 0 + 1 * c.val = c.val; omega
  | ⟨2, _⟩ => show o + 1 * l.val = o + l.val; omega

/-- The same for the activation block. -/
theorem tileC (a3 : Memref sig .tc .vmem S1x21x3200 .f32) (h3 : a3.IsWhole) (x1 : Vec Ideal S1x21x3200 .f32)
    (off : Fin 3 → Nat) (o : ℕ) (hoff : off = ![0, 0, o]) (hb : o + 640 ≤ 3200)
    (inb : ∀ a, off a + S1x21x640.size a ≤ S1x21x3200.size a) (k : Fin 21) (l : Fin 640) :
    (View.readAt (Elt Ideal) a3.view (Rect.unit (s := S1x21x3200) off S1x21x640.size inb).toLoadRect (h3.unread x1)
      : Vec Ideal S1x21x640 .f32) (ix3 0 k l) = colC x1 k (o + l.val) := by
  subst hoff
  rw [View.readAt_eq_ld, h3.read_unread]
  unfold colC
  rw [dif_pos (by have := l.isLt; omega)]
  show x1 _ = x1 _
  congr 1
  funext a
  apply Fin.ext
  match a with
  | ⟨0, _⟩ => rfl
  | ⟨1, _⟩ => show 0 + 1 * k.val = k.val; omega
  | ⟨2, _⟩ => show o + 1 * l.val = o + l.val; omega

/-- One trip of the loop, opened: from the carried pair `(s, acc)` it yields `s` plus the block's column sums and
    `acc` plus the activation tile's product with the block, the tiles loaded at the trip's offsets. -/
theorem trip_eq (𝒱 : Variants) (c : Dev nD) (bd : Option 𝒱.V) (i : grid0.Coords)
    (a2 : Memref sig .tc .vmem S1x448x3200 .f32) (h2 : a2.IsWhole) (a3 : Memref sig .tc .vmem S1x21x3200 .f32) (h3 : a3.IsWhole)
    (a4 : Memref sig .tc .vmem S1x21x640 .f32) (h4 : a4.IsWhole) (v3 : Vec Ideal S1x448x640 .f32)
    (X2 : BufTy.Contents (Elt Ideal) a2.view.ty) (X3 : BufTy.Contents (Elt Ideal) a3.view.ty)
    (k : Fin k0_t1_loop.trips) (acc : FVec Ideal S1x640 .f32 × FVec Ideal S21x640 .f32) :
    tripR_k0_t1 (F := Ideal) 𝒱 c bd i a2 h2 a3 h3 a4 h4 v3 X2 X3 k acc
      = (k0_pay4 v3 acc.1
            (View.readAt (Elt Ideal) a2.view (Rect.unit (s := S1x448x3200) (k0_off2 k) S1x448x640.size (k0_off2_inb k)).toLoadRect X2),
          k0_pay5 v3 acc.2
            (View.readAt (Elt Ideal) a2.view (Rect.unit (s := S1x448x3200) (k0_off2 k) S1x448x640.size (k0_off2_inb k)).toLoadRect X2)
            (View.readAt (Elt Ideal) a3.view (Rect.unit (s := S1x21x3200) (k0_off3 k) S1x21x640.size (k0_off3_inb k)).toLoadRect X3)) := by
  unfold tripR_k0_t1 trip_k0_t1
  rfl

/-- The loop makes five trips. -/
theorem trips5 : k0_t1_loop.trips = 5 := by decide +kernel

/-- The carried pair before trip `n`: the column sums, and the activation products, over the first `n` tiles — when
    the tile loaded before the loop holds the feature block's columns from `oj`. By induction on the trip. -/
theorem carried (c : Dev nD) (i : grid0.Coords)
    (a2 : Memref sig .tc .vmem S1x448x3200 .f32) (h2 : a2.IsWhole) (a3 : Memref sig .tc .vmem S1x21x3200 .f32) (h3 : a3.IsWhole)
    (a4 : Memref sig .tc .vmem S1x21x640 .f32) (h4 : a4.IsWhole)
    (x0 : Vec Ideal S1x448x3200 .f32) (x1 : Vec Ideal S1x21x3200 .f32) (v3 : Vec Ideal S1x448x640 .f32) (oj : ℕ)
    (hv3 : ∀ (ch : Fin 448) (l : Fin 640), v3 (ix3 0 ch l) = colF x0 ch (oj + l.val)) (n : ℕ) (hn : n ≤ 5) :
    (∀ jl : Fin 640,
      (st_k0_t1 (F := Ideal) Variants.none c none i a2 h2 a3 h3 a4 h4 v3 (h2.unread x0) (h3.unread x1) (k0_pay1, k0_pay2) n).1 (ix2 0 jl)
        = ∑ I ∈ Finset.range n, ∑ il : Fin 640, aff (colF x0) (I * 640 + il.val) (oj + jl.val))
    ∧ (∀ (k : Fin 21) (jl : Fin 640),
      (st_k0_t1 (F := Ideal) Variants.none c none i a2 h2 a3 h3 a4 h4 v3 (h2.unread x0) (h3.unread x1) (k0_pay1, k0_pay2) n).2 (ix2 k jl)
        = ∑ I ∈ Finset.range n, ∑ il : Fin 640, colC x1 k (I * 640 + il.val) * aff (colF x0) (I * 640 + il.val) (oj + jl.val)) := by
  induction n with
  | zero =>
    refine ⟨fun jl => ?_, fun k jl => ?_⟩
    · rw [Finset.sum_range_zero]
      show Ideal.ofBits .f32 0x00000000#32 = 0
      exact Ideal.ofBits_zero_f32
    · rw [Finset.sum_range_zero]
      show Ideal.ofBits .f32 0x00000000#32 = 0
      exact Ideal.ofBits_zero_f32
  | succ n ih =>
    have hlt : n < k0_t1_loop.trips := by rw [trips5]; omega
    obtain ⟨ih1, ih2⟩ := ih (by omega)
    have hs : st_k0_t1 (F := Ideal) Variants.none c none i a2 h2 a3 h3 a4 h4 v3 (h2.unread x0) (h3.unread x1) (k0_pay1, k0_pay2) (n + 1)
        = tripR_k0_t1 (F := Ideal) Variants.none c none i a2 h2 a3 h3 a4 h4 v3 (h2.unread x0) (h3.unread x1) ⟨n, hlt⟩
            (st_k0_t1 (F := Ideal) Variants.none c none i a2 h2 a3 h3 a4 h4 v3 (h2.unread x0) (h3.unread x1) (k0_pay1, k0_pay2) n) :=
      st_k0_t1_succ (F := Ideal) Variants.none c none i a2 h2 a3 h3 a4 h4 v3 (h2.unread x0) (h3.unread x1) (k0_pay1, k0_pay2) ⟨n, hlt⟩
    have h28 : ∀ (ch : Fin 448) (l : Fin 640),
        (View.readAt (Elt Ideal) a2.view (Rect.unit (s := S1x448x3200) (k0_off2 ⟨n, hlt⟩) S1x448x640.size (k0_off2_inb ⟨n, hlt⟩)).toLoadRect (h2.unread x0)
          : Vec Ideal S1x448x640 .f32) (ix3 0 ch l) = colF x0 ch (n * 640 + l.val) := fun ch l => by
      rw [tileF a2 h2 x0 _ (640 * n) (k0_off2_eq ⟨n, hlt⟩) (by omega) _ ch l, Nat.mul_comm]
    have h46 : ∀ (k : Fin 21) (l : Fin 640),
        (View.readAt (Elt Ideal) a3.view (Rect.unit (s := S1x21x3200) (k0_off3 ⟨n, hlt⟩) S1x21x640.size (k0_off3_inb ⟨n, hlt⟩)).toLoadRect (h3.unread x1)
          : Vec Ideal S1x21x640 .f32) (ix3 0 k l) = colC x1 k (n * 640 + l.val) := fun k l => by
      rw [tileC a3 h3 x1 _ (640 * n) (k0_off3_eq ⟨n, hlt⟩) (by omega) _ k l, Nat.mul_comm]
    refine ⟨fun jl => ?_, fun k jl => ?_⟩
    · rw [hs, trip_eq]
      show k0_pay4 v3 _ _ (ix2 0 jl) = _
      rw [pay4_apply, ih1 jl, Finset.sum_range_succ]
      refine congrArg (_ + ·) (Finset.sum_congr rfl fun il _ => ?_)
      exact pay3_of_cols v3 _ (colF x0) (n * 640) oj hv3 h28 il jl
    · rw [hs, trip_eq]
      show k0_pay5 v3 _ _ _ (ix2 k jl) = _
      rw [pay5_apply, ih2 k jl, Finset.sum_range_succ]
      refine congrArg (_ + ·) (Finset.sum_congr rfl fun il _ => ?_)
      rw [h46 k il, pay3_of_cols v3 _ (colF x0) (n * 640) oj hv3 h28 il jl]

/-- What one grid point leaves in the output's staging buffer: at row `k`, column `jl`, the tiled quotient `kerOut` of
    the point's two input blocks at column `J · 640 + jl` of output tile `J` (the point's second coordinate). -/
theorem out_apply (c : Dev nD) (i : grid0.Coords)
    (a2 : Memref sig .tc .vmem S1x448x3200 .f32) (h2 : a2.IsWhole) (a3 : Memref sig .tc .vmem S1x21x3200 .f32) (h3 : a3.IsWhole)
    (a4 : Memref sig .tc .vmem S1x21x640 .f32) (h4 : a4.IsWhole)
    (x0 : Vec Ideal S1x448x3200 .f32) (x1 : Vec Ideal S1x21x3200 .f32) (u : Fin 1) (k : Fin 21) (jl : Fin 640) :
    out0_A_2 (F := Ideal) c i a2 h2 a3 h3 a4 h4 x0 x1 (ix3 u k jl)
      = kerOut (colF x0) (colC x1) k ((i 1).val * 640 + jl.val) := by
  have hJ : (i 1).val < 5 := (i 1).isLt
  have hv3 : ∀ (ch : Fin 448) (l : Fin 640),
      (View.readAt (Elt Ideal) a2.view (Rect.unit (s := S1x448x3200) (k0_off1 i) S1x448x640.size (k0_off1_inb i)).toLoadRect (h2.unread x0)
        : Vec Ideal S1x448x640 .f32) (ix3 0 ch l) = colF x0 ch ((i 1).val * 640 + l.val) := fun ch l => by
    rw [tileF a2 h2 x0 _ (640 * (i 1).val) (k0_off1_eq i) (by omega) _ ch l, Nat.mul_comm]
  obtain ⟨hs, hacc⟩ := carried c i a2 h2 a3 h3 a4 h4 x0 x1 _ ((i 1).val * 640) hv3 5 (le_refl 5)
  unfold out0_A_2
  rw [View.read_writes_eq_canon _ _ _ (cover0_A_2 c i a2 h2 a3 h3 a4 h4 x0 x1)]
  unfold kernelRun0_A
  dsimp only
  have e5 : Scf.trips (0#32) (Scalar.addi 0#32 5#32) 1#32 = 5 := trips5
  rw [e5, View.canon_unit_zero hz3, pay6_apply]
  unfold kerOut tileSum
  refine congrArg₂ Ideal.div ?_ (congrArg (· + eps) ?_)
  · exact hacc k jl
  · exact hs jl

end Cert.KernelIdeal.Point

end
-- ==== Proof.KHead.lean ====
/-
  The two input windows' blocks, read back to the argument arrays.

  Before the region the program reshapes each argument array `[8, C, 56, 56]` to `[8, C, 3136]` (row-major:
  pixel `(h, w)` becomes column `56·h + w`) and pads the last axis with 64 columns of the integer zero read as
  a float, which at the exact reals is `0`. Each input window's block at a grid point is the whole batch image
  the point's first coordinate names. So entry `(0, c, p)` of the block is the argument's entry
  `(n, c, p / 56, p % 56)` for a pixel column `p < 3136`, and `0` for a padding column.
-/
import proofs.«110553_j36086315221369_2_alg».proof.Proof.Gen.KernelIdeal.Frame.Runs
import proofs.«110553_j36086315221369_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.KernelVsHost
import Idealize.ShloMosaic.Lib.Tactic
import Idealize.ShloMosaic.PureOps.Ideal.Laws

noncomputable section

namespace Cert.KernelIdeal.Head

open Idealize.ShloMosaic Idealize.ShloMosaic.TcCoe Idealize.SL.Sem Idealize.ShloMosaic.ValueIdx
open Cert.KernelIdeal Cert.KernelIdeal.Gen Cert.Affinity

/-- The padding value: the integer zero read as a float is `0`. -/
theorem padval_eq (j : S_.Idx) : (sitofp (F := Ideal) .f32 (constantI S_ 32 0#32) : FVec Ideal S_ .f32) j = 0 := by
  show ((((0#32 : BitVec 32).toInt : ℤ) : ℝ) : EReal) = 0
  simp

/-- The feature array reshaped to `[8, 448, 3136]` and padded to `[8, 448, 3200]`. -/
def padded1 (x : S8x448x56x56.Idx → EReal) : S8x448x3200.Idx → EReal :=
  pad S8x448x3200 ![0, 0, 0] ![0, 0, 64] ![0, 0, 0]
    (shapeCast S8x448x3136 x shapeCasts_S8x448x56x56_S8x448x3136)
    (sitofp (F := Ideal) .f32 (constantI S_ 32 0#32)) pads_S8x448x3136_S8x448x3200_000_000_0640 h_S_

/-- Read at `(n, c, p)`: the pixel `(p / 56, p % 56)` of channel `c` of image `n`, or `0` from column 3136 on. -/
theorem padded1_apply (x : S8x448x56x56.Idx → EReal) (n : Fin 8) (ch : Fin 448) (p : Fin 3200) :
    padded1 x (ix3 n ch p) = ftB x n ch p.val := by
  unfold padded1 ftB
  by_cases hp : p.val < 3136
  · rw [dif_pos hp]
    refine (pad_apply_of_inside _ _ _ _ _ pads_S8x448x3136_S8x448x3200_000_000_0640 h_S_ (ix3 n ch p)
      (ix3 n ch ⟨p.val, hp⟩) (fun a => ?_)).trans ?_
    · match a with
      | ⟨0, _⟩ => show n.val = 0 + n.val * (0 + 1); omega
      | ⟨1, _⟩ => show ch.val = 0 + ch.val * (0 + 1); omega
      | ⟨2, _⟩ => show p.val = 0 + p.val * (0 + 1); omega
    · refine shapeCast_apply x shapeCasts_S8x448x56x56_S8x448x3136 _
        (ix4 n ch ⟨p.val / 56, by omega⟩ ⟨p.val % 56, Nat.mod_lt _ (by norm_num)⟩) ?_
      rw [Shape.rowMajor_val_four, Shape.rowMajor_val_three]
      have h0 : n.val < 8 := n.isLt
      have h1 : ch.val < 448 := ch.isLt
      show ((n.val * 448 + ch.val) * 56 + p.val / 56) * 56 + p.val % 56 = (n.val * 448 + ch.val) * 3136 + p.val
      omega
  · rw [dif_neg hp]
    refine (pad_apply_of_not_inside _ _ _ _ _ pads_S8x448x3136_S8x448x3200_000_000_0640 h_S_ (ix3 n ch p) 2 ?_).trans
      (padval_eq _)
    show ¬(0 ≤ p.val ∧ (p.val - 0) % (0 + 1) = 0 ∧ (p.val - 0) / (0 + 1) < 3136)
    omega

variable (m : (ℓ : Loc nD τ sig) → Buf (Elt Ideal) ℓ)

/-- What the region finds in the padded feature array: the reshape-then-pad of the feature argument. -/
theorem V_main_v2 (c : Dev nD) :
    (V m c main_v2 : S8x448x3200.Idx → EReal) = padded1 (m ((c : Thread nD τ).loc main_arg1)) := by
  unfold padded1
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- Window 0's index map at every grid point: the batch image the point's first coordinate names, whole. -/
theorem index0 : ∀ t : Fin grid0.N,
    win0_0.index t 0 = (grid0.coords t 0).val ∧ win0_0.index t 1 = 0 ∧ win0_0.index t 2 = 0 := by
  decide +kernel

/-- Entry `(0, c, p)` of the feature window's block at a point of batch image `n`. -/
theorem iblk0_apply (c : Dev nD) (t : Fin cfg0.N) (n : Fin 8) (hn : (grid0.coords t 0).val = n.val) (ch : Fin 448) (p : Fin 3200) :
    (iblk m c 0 t : Vec Ideal S1x448x3200 .f32) (ix3 0 ch p) = ftB (m ((c : Thread nD τ).loc main_arg1)) n ch p.val := by
  have hi := index0 t
  unfold iblk
  rw [View.read_apply]
  show (V m c main_v2 : S8x448x3200.Idx → EReal) _ = _
  rw [V_main_v2]
  refine (congrArg (padded1 _) (?_ : _ = ix3 n ch p)).trans (padded1_apply _ n ch p)
  funext a
  apply Fin.ext
  match a with
  | ⟨0, _⟩ => show win0_0.index t 0 * 1 + 1 * (0 : Fin 1).val = n.val; rw [hi.1, hn]; simp
  | ⟨1, _⟩ => show win0_0.index t 1 * 448 + 1 * ch.val = ch.val; rw [hi.2.1]; omega
  | ⟨2, _⟩ => show win0_0.index t 2 * 3200 + 1 * p.val = p.val; rw [hi.2.2]; omega

/-- The class-activation array reshaped to `[8, 21, 3136]` and padded to `[8, 21, 3200]`. -/
def padded0 (x : S8x21x56x56.Idx → EReal) : S8x21x3200.Idx → EReal :=
  pad S8x21x3200 ![0, 0, 0] ![0, 0, 64] ![0, 0, 0]
    (shapeCast S8x21x3136 x shapeCasts_S8x21x56x56_S8x21x3136)
    (sitofp (F := Ideal) .f32 (constantI S_ 32 0#32)) pads_S8x21x3136_S8x21x3200_000_000_0640 h_S_

/-- Read at `(n, k, p)`: the pixel `(p / 56, p % 56)` of class `k` of image `n`, or `0` from column 3136 on. -/
theorem padded0_apply (x : S8x21x56x56.Idx → EReal) (n : Fin 8) (k : Fin 21) (p : Fin 3200) :
    padded0 x (ix3 n k p) = camB x n k p.val := by
  unfold padded0 camB
  by_cases hp : p.val < 3136
  · rw [dif_pos hp]
    refine (pad_apply_of_inside _ _ _ _ _ pads_S8x21x3136_S8x21x3200_000_000_0640 h_S_ (ix3 n k p)
      (ix3 n k ⟨p.val, hp⟩) (fun a => ?_)).trans ?_
    · match a with
      | ⟨0, _⟩ => show n.val = 0 + n.val * (0 + 1); omega
      | ⟨1, _⟩ => show k.val = 0 + k.val * (0 + 1); omega
      | ⟨2, _⟩ => show p.val = 0 + p.val * (0 + 1); omega
    · refine shapeCast_apply x shapeCasts_S8x21x56x56_S8x21x3136 _
        (ix4 n k ⟨p.val / 56, by omega⟩ ⟨p.val % 56, Nat.mod_lt _ (by norm_num)⟩) ?_
      rw [Shape.rowMajor_val_four, Shape.rowMajor_val_three]
      have h0 : n.val < 8 := n.isLt
      have h1 : k.val < 21 := k.isLt
      show ((n.val * 21 + k.val) * 56 + p.val / 56) * 56 + p.val % 56 = (n.val * 21 + k.val) * 3136 + p.val
      omega
  · rw [dif_neg hp]
    refine (pad_apply_of_not_inside _ _ _ _ _ pads_S8x21x3136_S8x21x3200_000_000_0640 h_S_ (ix3 n k p) 2 ?_).trans
      (padval_eq _)
    show ¬(0 ≤ p.val ∧ (p.val - 0) % (0 + 1) = 0 ∧ (p.val - 0) / (0 + 1) < 3136)
    omega

/-- What the region finds in the padded class-activation array: the reshape-then-pad of that argument. -/
theorem V_main_v3 (c : Dev nD) :
    (V m c main_v3 : S8x21x3200.Idx → EReal) = padded0 (m ((c : Thread nD τ).loc main_arg0)) := by
  unfold padded0
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- Window 1's index map at every grid point: the batch image the point's first coordinate names, whole. -/
theorem index1 : ∀ t : Fin grid0.N,
    win0_1.index t 0 = (grid0.coords t 0).val ∧ win0_1.index t 1 = 0 ∧ win0_1.index t 2 = 0 := by
  decide +kernel

/-- Entry `(0, k, p)` of the class-activation window's block at a point of batch image `n`. -/
theorem iblk1_apply (c : Dev nD) (t : Fin cfg0.N) (n : Fin 8) (hn : (grid0.coords t 0).val = n.val) (k : Fin 21) (p : Fin 3200) :
    (iblk m c 1 t : Vec Ideal S1x21x3200 .f32) (ix3 0 k p) = camB (m ((c : Thread nD τ).loc main_arg0)) n k p.val := by
  have hi := index1 t
  unfold iblk
  rw [View.read_apply]
  show (V m c main_v3 : S8x21x3200.Idx → EReal) _ = _
  rw [V_main_v3]
  refine (congrArg (padded0 _) (?_ : _ = ix3 n k p)).trans (padded0_apply _ n k p)
  funext a
  apply Fin.ext
  match a with
  | ⟨0, _⟩ => show win0_1.index t 0 * 1 + 1 * (0 : Fin 1).val = n.val; rw [hi.1, hn]; simp
  | ⟨1, _⟩ => show win0_1.index t 1 * 21 + 1 * k.val = k.val; rw [hi.2.1]; omega
  | ⟨2, _⟩ => show win0_1.index t 2 * 3200 + 1 * p.val = p.val; rw [hi.2.2]; omega

end Cert.KernelIdeal.Head

end
-- ==== Proof.KFlush.lean ====
/-
  What every grid point writes back, as a block of ONE whole-array function of the two argument arrays.

  The region's result array `[8, 21, 3200]` is tiled by the grid: point `(b, J)` writes rows `0..20` and columns
  `J · 640 .. J · 640 + 639` of batch image `b`. The point's two input blocks are the whole (zero-padded) images
  `b` of the feature and activation arrays, so the block it writes is `kerOut` of those images at the block's own
  columns: the restriction to the block of `G`, the array-wide function `(b, k, j) ↦ kerOut (image b) k j`.
-/
import proofs.«110553_j36086315221369_2_alg».proof.Proof.KLoop
import proofs.«110553_j36086315221369_2_alg».proof.Proof.KHead
import proofs.«110553_j36086315221369_2_alg».proof.Proof.Finite

noncomputable section

open Idealize.ShloMosaic Idealize.ShloMosaic.TcCoe Idealize.ShloMosaic.ValueIdx Idealize.SL.Sem
open Idealize.ShloMosaic.Pipeline (Dat)

namespace Cert.KernelIdeal.Flush

open Cert.KernelIdeal Cert.KernelIdeal.Gen Cert.Affinity Cert.KernelIdeal.Point

variable (m : (ℓ : Loc nD τ sig) → Buf (Elt Ideal) ℓ)

/-- The region's result array as one function of the two argument arrays: at batch image `b`, row `k`, column `j`, the
    tiled quotient of image `b`. -/
def G (c : Dev nD) : S8x21x3200.Idx → EReal := fun i =>
  kerOut (ftB (m ((c : Thread nD τ).loc main_arg1)) (i 0)) (camB (m ((c : Thread nD τ).loc main_arg0)) (i 0)) (i 1) (i 2).val

/-- The output window's block index at a point: (batch, 0, tile), decided over the grid. -/
theorem idx_facts : ∀ t : Fin cfg0.N, win0_2.index t (0 : Fin 3) = (grid0.coords t 0).val
    ∧ win0_2.index t (1 : Fin 3) = 0 ∧ win0_2.index t (2 : Fin 3) = (grid0.coords t 1).val :=
  (by decide +kernel : ∀ t : Fin grid0.N, _)

/-- Point `t` writes back block `t` of `G`. -/
theorem flushed_eq (c : Dev nD) (t : Fin cfg0.N) (hf : (cfg0.win 2).flush t = true) :
    (dats m 0 c).flushed 2 t = ((cfg0.win 2).blk t).view.read (Elt Ideal) (G m c) := by
  show (cfg0.win 2).cut (grid0.coords t) ((dats m 0 c).after 2 t) = _
  rw [after0_2]
  unfold outsAt0
  obtain ⟨e0, e1, e2⟩ := idx_facts t
  have hn : (grid0.coords t 0).val < 8 := (grid0.coords t 0).isLt
  have hJ : (grid0.coords t 1).val < 5 := (grid0.coords t 1).isLt
  have hF : colF (iblk m c 0 t) = ftB (m ((c : Thread nD τ).loc main_arg1)) ⟨(grid0.coords t 0).val, hn⟩ := by
    funext ch p
    unfold colF
    split
    · rename_i hp
      exact Cert.KernelIdeal.Head.iblk0_apply m c t ⟨(grid0.coords t 0).val, hn⟩ rfl ch ⟨p, hp⟩
    · rename_i hp
      exact (ftB_zero _ _ _ _ (by omega)).symm
  have hC : colC (iblk m c 1 t) = camB (m ((c : Thread nD τ).loc main_arg0)) ⟨(grid0.coords t 0).val, hn⟩ := by
    funext k p
    unfold colC
    split
    · rename_i hp
      exact Cert.KernelIdeal.Head.iblk1_apply m c t ⟨(grid0.coords t 0).val, hn⟩ rfl k ⟨p, hp⟩
    · rename_i hp
      unfold camB
      rw [dif_neg (by omega)]
  funext j
  obtain ⟨u, k, jl, rfl⟩ : ∃ (u : Fin 1) (k : Fin 21) (jl : Fin 640), j = ix3 u k jl := ⟨j 0, j 1, j 2, eq_ix3 j⟩
  show out0_A_2 (F := Ideal) c (grid0.coords t) (ms0_0 t) (hs0_0 t) (ms0_1 t) (hs0_1 t) (ms0_2 t) (hs0_2 t)
      (iblk m c 0 t) (iblk m c 1 t) (ix3 u k jl) = G m c (((cfg0.win 2).blk t).view.emb (ix3 u k jl))
  have he : ((cfg0.win 2).blk t).view.emb (ix3 u k jl)
      = (ix3 ⟨(grid0.coords t 0).val, hn⟩ k ⟨(grid0.coords t 1).val * 640 + jl.val, by have := jl.isLt; omega⟩ : S8x21x3200.Idx) := by
    funext a
    apply Fin.ext
    match a with
    | ⟨0, _⟩ => show win0_2.index t (0 : Fin 3) * 1 + 1 * u.val = (grid0.coords t 0).val; have := u.isLt; omega
    | ⟨1, _⟩ => show win0_2.index t (1 : Fin 3) * 21 + 1 * k.val = k.val; omega
    | ⟨2, _⟩ => show win0_2.index t (2 : Fin 3) * 640 + 1 * jl.val = (grid0.coords t 1).val * 640 + jl.val; omega
  rw [out_apply, hF, hC, he]
  rfl

end Cert.KernelIdeal.Flush

end
-- ==== Proof.KTail.lean ====
/-
  From the output blocks to the result array, through the two host operations after the region.

  The region's output window tiles the `[8, 21, 3200]` array by blocks `[1, 21, 640]`: grid point
  `t = 5 · b + j` writes back the block at batch image `b`, columns `640 · j … 640 · j + 639`. Every index
  of the array lies in exactly the block of the point `5 · (i 0) + (i 2) / 640`, so when each point writes
  back the block of one whole-array function `G`, the array ends holding `G`. The host then keeps the first
  3136 columns and splits them into 56 rows of 56: entry `(n, k, r, s)` of the result is `G` at
  `(n, k, 56 · r + s)`.
-/
import proofs.«110553_j36086315221369_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.Tail

open Idealize.ShloMosaic Idealize.ShloMosaic.TcCoe Idealize.SL.Sem Idealize.ShloMosaic.ValueIdx Cert.KernelIdeal Cert.KernelIdeal.Gen
open Idealize.ShloMosaic.Pipeline (Dat)

variable {F : FTy → Type} [FloatOps F]

variable (m : (ℓ : Loc nD τ sig) → Buf (Elt F) ℓ) (ρ : Dev nD → PrngReg)

/-! ## The blocks cover the array -/

/-- The output window's block indices at grid point `t`: batch image `t / 5`, all 21 rows, column tile `t % 5`. -/
theorem idx_facts : ∀ t : Fin cfg0.N, win0_2.index t (0 : Fin 3) = t.val / 5
    ∧ win0_2.index t (1 : Fin 3) = 0 ∧ win0_2.index t (2 : Fin 3) = t.val % 5 :=
  (by decide +kernel : ∀ t : Fin grid0.N, _)

/-- An index of the array is in point `t`'s block iff each coordinate is in the block's range on its axis. -/
theorem mem_blk (t : Fin cfg0.N) (i : S8x21x3200.Idx) :
    i ∈ ((cfg0.win 2).blk t).view.set ↔ ∀ a : Fin 3, win0_2.index t a * S1x21x640.size a ≤ (i a).val
      ∧ (i a).val < win0_2.index t a * S1x21x640.size a + S1x21x640.size a := by
  show i ∈ ((View.whole main_v4).slice (win0_2.rect t)).set ↔ _
  rw [View.set_slice_whole, Rect.mem_set_unit]
  exact Iff.rfl

/-- Every index of the array is in the block of the point `5 · (i 0) + (i 2) / 640`, which writes back. -/
theorem cover (i : S8x21x3200.Idx) :
    ∃ t : Fin cfg0.N, (cfg0.win 2).flush t = true ∧ i ∈ ((cfg0.win 2).blk t).view.set := by
  have hN : cfg0.N = 40 := N_0
  have h0 : (i 0).val < 8 := (i 0).isLt
  have h1 : (i 1).val < 21 := (i 1).isLt
  have h2 : (i 2).val < 3200 := (i 2).isLt
  obtain ⟨t, ht⟩ : ∃ t : Fin cfg0.N, t.val = (i 0).val * 5 + (i 2).val / 640 := ⟨⟨_, by omega⟩, rfl⟩
  refine ⟨t, flush0_2 t, ?_⟩
  rw [mem_blk]
  obtain ⟨e0, e1, e2⟩ := idx_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 21 ≤ (i 1).val ∧ (i 1).val < win0_2.index t (1 : Fin 3) * 21 + 21; omega
  | ⟨2, _⟩ => show win0_2.index t (2 : Fin 3) * 640 ≤ (i 2).val ∧ (i 2).val < win0_2.index t (2 : Fin 3) * 640 + 640; omega

/-- So, when every point writes back its block of `G`, the array ends holding `G`. -/
theorem final (G : S8x21x3200.Idx → Elt F .f32) (c : Dev nD)
    (hfl : ∀ t : Fin cfg0.N, (cfg0.win 2).flush t = true →
      (dats m 0 c).flushed 2 t = ((cfg0.win 2).blk t).view.read (Elt F) G) :
    (dats m 0 c).arrAt 2 cfg0.N = G :=
  (dats m 0 c).arrAt_eq_of_cover 2 G hfl cover

/-! ## The host operations after the region -/

/-- The result buffer after the two host operations: the reshape of the slice of the region's output array. -/
theorem tail_v6 (c : Dev nD) :
    Pipeline.afterTail₀ cfgs (dats m) 0 (V0 m) [hostOps1] c main_v6
      = shapeCast S8x21x56x56 (extractStridedSlice S8x21x3136 ![0, 0, 0] ((dats m 0 c).arrAt 2 cfg0.N)
          slices_S8x21x3200_S8x21x3136_0_0_0) shapeCasts_S8x21x3136_S8x21x56x56 := by
  unfold Pipeline.afterTail₀
  show StableHlo.after hostOps1 _ (Proc.devRef .tc main_v6) = _
  after_results
  have e : Pipeline.withArrays (cfgs 0).spec c (V0 m c) (fun w => (dats m 0 c).arrAt w (cfgs 0).N)
      (Proc.devRef .tc main_v4) = (dats m 0 c).arrAt 2 cfg0.N :=
    Pipeline.withArrays_arr spec0 launch0.win.arr_inj c _ _ 2
  rw [e]
  rfl

/-- Entry `(n, k, r, s)` of the reshaped slice of an array `X` is `X` at `(n, k, 56 · r + s)`: the slice starts
    at zero on every axis, and both indices have row-major position `((21 n + k) · 56 + r) · 56 + s`. -/
theorem tail_at (X : S8x21x3200.Idx → Elt F .f32) (n : Fin 8) (k : Fin 21) (r s : Fin 56) :
    shapeCast S8x21x56x56 (extractStridedSlice S8x21x3136 ![0, 0, 0] X slices_S8x21x3200_S8x21x3136_0_0_0)
        shapeCasts_S8x21x3136_S8x21x56x56 (ix4 n k r s)
      = X (ix3 n k ⟨r.val * 56 + s.val, by have := r.isLt; have := s.isLt; omega⟩) := by
  have hn := n.isLt; have hk := k.isLt; have hr := r.isLt; have hs := s.isLt
  refine (shapeCast_apply _ shapeCasts_S8x21x3136_S8x21x56x56 (ix4 n k r s)
    (ix3 n k ⟨r.val * 56 + s.val, by omega⟩) ?_).trans ?_
  · rw [Shape.rowMajor_val_three, Shape.rowMajor_val_four]
    show (n.val * 21 + k.val) * 3136 + (r.val * 56 + s.val) = ((n.val * 21 + k.val) * 56 + r.val) * 56 + s.val
    omega
  · refine extractStridedSlice_apply _ X slices_S8x21x3200_S8x21x3136_0_0_0 _ _ fun a => ?_
    match a with
    | ⟨0, _⟩ => show n.val = 0 + n.val; omega
    | ⟨1, _⟩ => show k.val = 0 + k.val; omega
    | ⟨2, _⟩ => show r.val * 56 + s.val = 0 + (r.val * 56 + s.val); omega

/-- So the result buffer holds `G` at `(i 0, i 1, 56 · (i 2) + (i 3))` when every point writes back its block of `G`. -/
theorem result_eq (G : S8x21x3200.Idx → Elt F .f32) (c : Dev nD)
    (hfl : ∀ t : Fin cfg0.N, (cfg0.win 2).flush t = true →
      (dats m 0 c).flushed 2 t = ((cfg0.win 2).blk t).view.read (Elt F) G) :
    Pipeline.afterTail₀ cfgs (dats m) 0 (V0 m) [hostOps1] c main_v6
      = (fun i : S8x21x56x56.Idx => G (ix3 (i 0) (i 1) ⟨(i 2).val * 56 + (i 3).val, by
          have h2 : (i 2).val < 56 := (i 2).isLt; have h3 : (i 3).val < 56 := (i 3).isLt; omega⟩)) := by
  rw [tail_v6, final m G c hfl]
  funext i
  obtain ⟨n, k, r, s, rfl⟩ : ∃ (n : Fin 8) (k : Fin 21) (r s : Fin 56), i = ix4 n k r s :=
    ⟨i 0, i 1, i 2, i 3, eq_ix4 i⟩
  exact tail_at G n k r s

/-! ## The run -/

/-- The kernel program's run, read: the result buffer at `G` re-indexed, the two arguments unchanged. -/
theorem run_of_flushed_gen (G : Dev nD → S8x21x3200.Idx → Elt F .f32)
    (hfl : ∀ (c : Dev nD) (t : Fin cfg0.N), (cfg0.win 2).flush t = true →
      (dats m 0 c).flushed 2 t = ((cfg0.win 2).blk t).view.read (Elt F) (G c)) :
    θ_run defs (onTc (τ := τ) (main (F := F))) ⟨m, fun _ => 0, ρ⟩ (fun r => ∀ c : Dev nD,
      r.2.mem ((c.tc : Thread nD τ).loc main_v6)
          = (fun i : S8x21x56x56.Idx => G c (ix3 (i 0) (i 1) ⟨(i 2).val * 56 + (i 3).val, by
              have h2 : (i 2).val < 56 := (i 2).isLt; have h3 : (i 3).val < 56 := (i 3).isLt; omega⟩))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (result_eq m (G c) c (hfl c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- The same at the extended reals. -/
theorem run_of_flushed (m : (ℓ : Loc nD τ sig) → Buf (Elt Ideal) ℓ) (ρ : Dev nD → PrngReg)
    (G : Dev nD → S8x21x3200.Idx → EReal)
    (hfl : ∀ (c : Dev nD) (t : Fin cfg0.N), (cfg0.win 2).flush t = true →
      (dats m 0 c).flushed 2 t = ((cfg0.win 2).blk t).view.read (Elt Ideal) (G c)) :
    θ_run defs (onTc (τ := τ) (main (F := Ideal))) ⟨m, fun _ => 0, ρ⟩ (fun r => ∀ c : Dev nD,
      r.2.mem ((c.tc : Thread nD τ).loc main_v6)
          = (fun i : S8x21x56x56.Idx => G c (ix3 (i 0) (i 1) ⟨(i 2).val * 56 + (i 3).val, by
              have h2 : (i 2).val < 56 := (i 2).isLt; have h3 : (i 3).val < 56 := (i 3).isLt; omega⟩))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of_flushed_gen m ρ G hfl

end Cert.KernelIdeal.Tail

end
-- ==== Proof.lean ====
/-
  The certificate: the tiled affinity kernel computes what the reference computes, on the extended reals.

  Per batch image both programs scale every feature column to unit length (plus `ε`), form the pixel-by-pixel
  affinity `max (∑ c, ftn c i · ftn c j) 0`, L1-normalise each affinity column with `ε`, and multiply the
  class-activation matrix by it. The reference divides each affinity entry by its column's sum and then sums over
  pixels (`refOut`); the kernel pads the 3136 pixels with 64 zero columns, sums the products and the column sums
  over five tiles of 640 columns carried through a loop, and divides once (`kerOut`). Under the precondition every
  input is a real number, so every intermediate is real, each column's denominator is a real `≥ ε > 0`, the
  quotient moves across the finite sum, and a zero column contributes nothing: the two agree (Algebra.lean).

  The kernel's value is read off its generated run — one grid point's output block (KBody.lean, KLoop.lean), the
  input blocks as the zero-padded reshaped arguments (KHead.lean), the blocks as restrictions of one array-wide
  function (KFlush.lean), the array through the slice and reshape after the region (KTail.lean); the reference's
  from its generated run, one operation at a time (RefValue.lean); the inputs' finiteness from the precondition
  (Finite.lean). The three frames are the generated ones; nothing was rewritten by the idealization.
-/
import proofs.«110553_j36086315221369_2_alg».proof.Defs
import proofs.«110553_j36086315221369_2_alg».proof.Proof.Gen.Kernel
import proofs.«110553_j36086315221369_2_alg».proof.Proof.Gen.Kernel.Skeleton
import proofs.«110553_j36086315221369_2_alg».proof.Proof.Gen.Kernel.Loops
import proofs.«110553_j36086315221369_2_alg».proof.Proof.Gen.Kernel.Launch
import proofs.«110553_j36086315221369_2_alg».proof.Proof.Gen.Kernel.Points
import proofs.«110553_j36086315221369_2_alg».proof.Proof.Gen.Kernel.Frame
import proofs.«110553_j36086315221369_2_alg».proof.Proof.Gen.KernelIdeal
import proofs.«110553_j36086315221369_2_alg».proof.Proof.Gen.KernelIdeal.Skeleton
import proofs.«110553_j36086315221369_2_alg».proof.Proof.Gen.KernelIdeal.Loops
import proofs.«110553_j36086315221369_2_alg».proof.Proof.Gen.KernelIdeal.Launch
import proofs.«110553_j36086315221369_2_alg».proof.Proof.Gen.KernelIdeal.Points
import proofs.«110553_j36086315221369_2_alg».proof.Proof.Gen.KernelIdeal.Frame
import proofs.«110553_j36086315221369_2_alg».proof.Proof.Gen.ReferenceIdeal
import proofs.«110553_j36086315221369_2_alg».proof.Proof.Gen.Pre_finite_inputs
import proofs.«110553_j36086315221369_2_alg».proof.Proof.Gen.ReferenceIdeal.Run
import proofs.«110553_j36086315221369_2_alg».proof.Proof.Gen.ReferenceIdeal.Read
import proofs.«110553_j36086315221369_2_alg».proof.Proof.Algebra
import proofs.«110553_j36086315221369_2_alg».proof.Proof.Finite
import proofs.«110553_j36086315221369_2_alg».proof.Proof.RefValue
import proofs.«110553_j36086315221369_2_alg».proof.Proof.KFlush
import proofs.«110553_j36086315221369_2_alg».proof.Proof.KTail
import Idealize.ShloMosaic.Adequacy
import Idealize.ShloMosaic.Init

noncomputable section

namespace Cert.Proof

open Idealize.ShloMosaic Idealize.ShloMosaic.ValueIdx Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from finite inputs that agree, the kernel's result array is `kerOut` of each batch image and
    the reference's is `refOut` of the same image, and the two are equal. -/
theorem algebraic : Cert.algebraic_KernelIdeal_ReferenceIdeal := by
  intro m ρ m' ρ' hpre hagree
  refine ⟨_, Cert.KernelIdeal.Tail.run_of_flushed m ρ (Cert.KernelIdeal.Flush.G m) (Cert.KernelIdeal.Flush.flushed_eq m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  funext i
  rw [Cert.ReferenceIdeal.RefValue.result_apply]
  have hreal := Cert.Affinity.real_of_pre _ _ (hpre c)
  exact (Cert.Affinity.kerOut_eq_refOut _ _
    (fun ch p => Cert.Affinity.ftB_real _ hreal.2 (i 0) ch p)
    (fun k p => Cert.Affinity.camB_real _ hreal.1 (i 0) k p)
    (fun ch p hp => Cert.Affinity.ftB_zero _ (i 0) ch p hp) (i 1) _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
